-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x4096x481 : Shape := ⟨4, ![8, 2, 4096, 481]⟩
abbrev S8x10x4096x256 : Shape := ⟨4, ![8, 10, 4096, 256]⟩
abbrev S_ : Shape := ⟨0, ![]⟩

class Facts : Prop where
  bcast_S_S8x2x4096x481 : S_.BroadcastsInDim S8x2x4096x481 (![] : Fin 0 → Fin S8x2x4096x481.rank)
  reducesTo_S8x2x4096x481_S_d0_1_2_3 : S8x2x4096x481.ReducesTo [0, 1, 2, 3] S_
  h_S_ : 0 < S_.numel
  bcast_S_S8x10x4096x256 : S_.BroadcastsInDim S8x10x4096x256 (![] : Fin 0 → Fin S8x10x4096x256.rank)
  reducesTo_S8x10x4096x256_S_d0_1_2_3 : S8x10x4096x256.ReducesTo [0, 1, 2, 3] S_

variable [Facts]

def fn {F : FTy → Type} [FloatOps F] (main_arg0 : FVec F S8x2x4096x481 .f32) (main_arg1 : FVec F S8x10x4096x256 .f32) : IVec S_ 1 :=
  let main_v0 : FVec F S8x2x4096x481 .f32 := Host.absf main_arg0
  let main_cst : FVec F S_ .f32 := constant S_ .f32 0x7F800000#32
  let main_v1 : FVec F S8x2x4096x481 .f32 := broadcastInDim S8x2x4096x481 ![] bcast_S_S8x2x4096x481 main_cst
  let main_v2 : IVec S8x2x4096x481 1 := cmpf .olt main_v0 main_v1
  let main_c : IVec S_ 1 := constantI S_ 1 1#1
  let main_v3 : IVec S_ 1 := (fun x v => Host.reduce IntOp.andi x v reducesTo_S8x2x4096x481_S_d0_1_2_3 h_S_) main_v2 main_c
  let main_v4 : FVec F S8x10x4096x256 .f32 := Host.absf main_arg1
  let main_cst_0 : FVec F S_ .f32 := constant S_ .f32 0x7F800000#32
  let main_v5 : FVec F S8x10x4096x256 .f32 := broadcastInDim S8x10x4096x256 ![] bcast_S_S8x10x4096x256 main_cst_0
  let main_v6 : IVec S8x10x4096x256 1 := cmpf .olt main_v4 main_v5
  let main_c_1 : IVec S_ 1 := constantI S_ 1 1#1
  let main_v7 : IVec S_ 1 := (fun x v => Host.reduce IntOp.andi x v reducesTo_S8x10x4096x256_S_d0_1_2_3 h_S_) main_v6 main_c_1
  let main_v8 : IVec S_ 1 := andi main_v3 main_v7
  main_v8
-- ==== Kernel.lean ====
abbrev S8x2x4096x481 : Shape := ⟨4, ![8, 2, 4096, 481]⟩
abbrev S8x10x4096x256 : Shape := ⟨4, ![8, 10, 4096, 256]⟩
abbrev S1x2x1024x481 : Shape := ⟨4, ![1, 2, 1024, 481]⟩
abbrev S1x10x1024x256 : Shape := ⟨4, ![1, 10, 1024, 256]⟩
abbrev S2x4x256 : Shape := ⟨3, ![2, 4, 256]⟩
abbrev S1x1x1024x256 : Shape := ⟨4, ![1, 1, 1024, 256]⟩
abbrev S1024x256 : Shape := ⟨2, ![1024, 256]⟩
abbrev S1x4x256 : Shape := ⟨3, ![1, 4, 256]⟩
abbrev S4x256 : Shape := ⟨2, ![4, 256]⟩
abbrev S1028x256 : Shape := ⟨2, ![1028, 256]⟩
abbrev S1x1x1024x225 : Shape := ⟨4, ![1, 1, 1024, 225]⟩
abbrev S1024x225 : Shape := ⟨2, ![1024, 225]⟩
abbrev S1024x481 : Shape := ⟨2, ![1024, 481]⟩
abbrev S1x1x1024x481 : Shape := ⟨4, ![1, 1, 1024, 481]⟩

abbrev nBuf : Space → Nat
  | .hbm => 3
  | .vmem => 7
  | .smem => 0
  | _ => 0

abbrev bufTy : (tb : Table) → Fin (tcTables nBuf tb) → BufTy
  | .hbm, ⟨0, _⟩ => ⟨S8x2x4096x481, .f32⟩
  | .hbm, ⟨1, _⟩ => ⟨S8x10x4096x256, .f32⟩
  | .hbm, ⟨2, _⟩ => ⟨S8x2x4096x481, .f32⟩
  | .local _ .vmem, ⟨0, _⟩ => ⟨S1x2x1024x481, .f32⟩
  | .local _ .vmem, ⟨1, _⟩ => ⟨S1x2x1024x481, .f32⟩
  | .local _ .vmem, ⟨2, _⟩ => ⟨S1x10x1024x256, .f32⟩
  | .local _ .vmem, ⟨3, _⟩ => ⟨S1x10x1024x256, .f32⟩
  | .local _ .vmem, ⟨4, _⟩ => ⟨S1x2x1024x481, .f32⟩
  | .local _ .vmem, ⟨5, _⟩ => ⟨S1x2x1024x481, .f32⟩
  | .local _ .vmem, ⟨6, _⟩ => ⟨S2x4x256, .f32⟩
  | _, _ => ⟨S8x2x4096x481, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x1024x481 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1024x481 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2x4x256_S2x4x256_0_0_0 : ∀ a, (![0, 0, 0] : Fin 3 → Nat) a + S2x4x256.size a ≤ S2x4x256.size a
  h_S2x4x256 : 0 < S2x4x256.numel
  shapeCasts_S2x4x256_S2x4x256 : S2x4x256.ShapeCasts S2x4x256
  inb_S1x2x1024x481_S1x1x1024x256_0_0_0_0 : ∀ a, (![0, 0, 0, 0] : Fin 4 → Nat) a + S1x1x1024x256.size a ≤ S1x2x1024x481.size a
  h_S1x1x1024x256 : 0 < S1x1x1024x256.numel
  shapeCasts_S1x1x1024x256_S1024x256 : S1x1x1024x256.ShapeCasts S1024x256
  inb_S1x2x1024x481_S1x1x1024x256_0_1_0_0 : ∀ a, (![0, 1, 0, 0] : Fin 4 → Nat) a + S1x1x1024x256.size a ≤ S1x2x1024x481.size a
  inb_S2x4x256_S1x4x256_0_0_0 : ∀ a, (![0, 0, 0] : Fin 3 → Nat) a + S1x4x256.size a ≤ S2x4x256.size a
  h_S1x4x256 : 0 < S1x4x256.numel
  shapeCasts_S1x4x256_S4x256 : S1x4x256.ShapeCasts S4x256
  concatenates_S4x256_S1024x256_S1028x256_d0 : Shape.Concatenates [S4x256, S1024x256] S1028x256 0
  inb_S2x4x256_S1x4x256_1_0_0 : ∀ a, (![1, 0, 0] : Fin 3 → Nat) a + S1x4x256.size a ≤ S2x4x256.size a
  slices_S1028x256_o0_0_S1024x256 : S1028x256.Slices ![0, 0] S1024x256
  inb_S1x10x1024x256_S1x1x1024x256_0_0_0_0 : ∀ a, (![0, 0, 0, 0] : Fin 4 → Nat) a + S1x1x1024x256.size a ≤ S1x10x1024x256.size a
  inb_S1x10x1024x256_S1x1x1024x256_0_5_0_0 : ∀ a, (![0, 5, 0, 0] : Fin 4 → Nat) a + S1x1x1024x256.size a ≤ S1x10x1024x256.size a
  rotates_S1028x256_d0 : S1028x256.Rotates 0 none
  inb_S1x10x1024x256_S1x1x1024x256_0_1_0_0 : ∀ a, (![0, 1, 0, 0] : Fin 4 → Nat) a + S1x1x1024x256.size a ≤ S1x10x1024x256.size a
  inb_S1x10x1024x256_S1x1x1024x256_0_6_0_0 : ∀ a, (![0, 6, 0, 0] : Fin 4 → Nat) a + S1x1x1024x256.size a ≤ S1x10x1024x256.size a
  inb_S1x10x1024x256_S1x1x1024x256_0_2_0_0 : ∀ a, (![0, 2, 0, 0] : Fin 4 → Nat) a + S1x1x1024x256.size a ≤ S1x10x1024x256.size a
  inb_S1x10x1024x256_S1x1x1024x256_0_7_0_0 : ∀ a, (![0, 7, 0, 0] : Fin 4 → Nat) a + S1x1x1024x256.size a ≤ S1x10x1024x256.size a
  inb_S1x10x1024x256_S1x1x1024x256_0_3_0_0 : ∀ a, (![0, 3, 0, 0] : Fin 4 → Nat) a + S1x1x1024x256.size a ≤ S1x10x1024x256.size a
  inb_S1x10x1024x256_S1x1x1024x256_0_8_0_0 : ∀ a, (![0, 8, 0, 0] : Fin 4 → Nat) a + S1x1x1024x256.size a ≤ S1x10x1024x256.size a
  inb_S1x10x1024x256_S1x1x1024x256_0_4_0_0 : ∀ a, (![0, 4, 0, 0] : Fin 4 → Nat) a + S1x1x1024x256.size a ≤ S1x10x1024x256.size a
  inb_S1x10x1024x256_S1x1x1024x256_0_9_0_0 : ∀ a, (![0, 9, 0, 0] : Fin 4 → Nat) a + S1x1x1024x256.size a ≤ S1x10x1024x256.size a
  inb_S1x2x1024x481_S1x1x1024x225_0_0_0_256 : ∀ a, (![0, 0, 0, 256] : Fin 4 → Nat) a + S1x1x1024x225.size a ≤ S1x2x1024x481.size a
  h_S1x1x1024x225 : 0 < S1x1x1024x225.numel
  shapeCasts_S1x1x1024x225_S1024x225 : S1x1x1024x225.ShapeCasts S1024x225
  inb_S1x2x1024x481_S1x1x1024x225_0_1_0_256 : ∀ a, (![0, 1, 0, 256] : Fin 4 → Nat) a + S1x1x1024x225.size a ≤ S1x2x1024x481.size a
  concatenates_S1024x256_S1024x225_S1024x481_d1 : Shape.Concatenates [S1024x256, S1024x225] S1024x481 1
  inb_S1x2x1024x481_S1x1x1024x481_0_0_0_0 : ∀ a, (![0, 0, 0, 0] : Fin 4 → Nat) a + S1x1x1024x481.size a ≤ S1x2x1024x481.size a
  h_S1x1x1024x481 : 0 < S1x1x1024x481.numel
  shapeCasts_S1x1x1024x481_S1024x481 : S1x1x1024x481.ShapeCasts S1024x481
  shapeCasts_S1024x481_S1x1x1024x481 : S1024x481.ShapeCasts S1x1x1024x481
  inb_S1x2x1024x481_S1x1x1024x481_0_1_0_0 : ∀ a, (![0, 1, 0, 0] : Fin 4 → Nat) a + S1x1x1024x481.size a ≤ S1x2x1024x481.size a
  slices_S1024x256_o1020_0_S4x256 : S1024x256.Slices ![1020, 0] S4x256
  shapeCasts_S4x256_S1x4x256 : S4x256.ShapeCasts S1x4x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024x481.size a ≤ S8x2x4096x481.size a
  hwx0_0 : ∀ i : grid0.Coords, EltTy.bits .f32 = 32 ∨ (Rect.block (s := S8x2x4096x481) S1x2x1024x481.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10x1024x256.size a ≤ S8x10x4096x256.size a
  hwx0_1 : ∀ i : grid0.Coords, EltTy.bits .f32 = 32 ∨ (Rect.block (s := S8x10x4096x256) S1x10x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x1024x481.size a ≤ S8x2x4096x481.size a
  hwx0_2 : ∀ i : grid0.Coords, EltTy.bits .f32 = 32 ∨ (Rect.block (s := S8x2x4096x481) S1x2x1024x481.size (cc0_transform_2 i) (hinb0_2 i)).WholeWords (EltTy.packing .f32)

variable [Facts₀]

abbrev win0_0 : Pipeline.Window sig grid0 :=
  Pipeline.Window.ofSpec (Memref.whole main_arg0) S1x2x1024x481.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x10x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x1024x481.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2x4096x481 : Shape := ⟨4, ![8, 2, 4096, 481]⟩
abbrev S8x10x4096x256 : Shape := ⟨4, ![8, 10, 4096, 256]⟩
abbrev S8x2x4096x256 : Shape := ⟨4, ![8, 2, 4096, 256]⟩
abbrev S_ : Shape := ⟨0, ![]⟩
abbrev S8x2x4100x256 : Shape := ⟨4, ![8, 2, 4100, 256]⟩
abbrev S8x2x4096x256x1 : Shape := ⟨5, ![8, 2, 4096, 256, 1]⟩
abbrev S8x2x4096x256x5 : Shape := ⟨5, ![8, 2, 4096, 256, 5]⟩
abbrev S8x2x5x4096x256 : Shape := ⟨5, ![8, 2, 5, 4096, 256]⟩
abbrev S8x1x4096x256x5 : Shape := ⟨5, ![8, 1, 4096, 256, 5]⟩
abbrev S8x4096x256x5 : Shape := ⟨4, ![8, 4096, 256, 5]⟩
abbrev S8x4096x256 : Shape := ⟨3, ![8, 4096, 256]⟩
abbrev S8x1x4096x256 : Shape := ⟨4, ![8, 1, 4096, 256]⟩
abbrev S8x2x4096x225 : Shape := ⟨4, ![8, 2, 4096, 225]⟩

abbrev nBuf : Space → Nat
  | .hbm => 42
  | .vmem => 0
  | .smem => 0
  | _ => 0

abbrev bufTy : (tb : Table) → Fin (tcTables nBuf tb) → BufTy
  | .hbm, ⟨0, _⟩ => ⟨S8x2x4096x481, .f32⟩
  | .hbm, ⟨1, _⟩ => ⟨S8x10x4096x256, .f32⟩
  | .hbm, ⟨2, _⟩ => ⟨S8x2x4096x256, .f32⟩
  | .hbm, ⟨3, _⟩ => ⟨S_, .i32⟩
  | .hbm, ⟨4, _⟩ => ⟨S_, .f32⟩
  | .hbm, ⟨5, _⟩ => ⟨S8x2x4100x256, .f32⟩
  | .hbm, ⟨6, _⟩ => ⟨S8x2x4096x256, .f32⟩
  | .hbm, ⟨7, _⟩ => ⟨S8x2x4096x256, .f32⟩
  | .hbm, ⟨8, _⟩ => ⟨S8x2x4096x256, .f32⟩
  | .hbm, ⟨9, _⟩ => ⟨S8x2x4096x256, .f32⟩
  | .hbm, ⟨10, _⟩ => ⟨S8x2x4096x256, .f32⟩
  | .hbm, ⟨11, _⟩ => ⟨S8x2x4096x256x1, .f32⟩
  | .hbm, ⟨12, _⟩ => ⟨S8x2x4096x256x1, .f32⟩
  | .hbm, ⟨13, _⟩ => ⟨S8x2x4096x256x1, .f32⟩
  | .hbm, ⟨14, _⟩ => ⟨S8x2x4096x256x1, .f32⟩
  | .hbm, ⟨15, _⟩ => ⟨S8x2x4096x256x1, .f32⟩
  | .hbm, ⟨16, _⟩ => ⟨S8x2x4096x256x5, .f32⟩
  | .hbm, ⟨17, _⟩ => ⟨S8x2x5x4096x256, .f32⟩
  | .hbm, ⟨18, _⟩ => ⟨S8x2x4096x256x5, .f32⟩
  | .hbm, ⟨19, _⟩ => ⟨S8x1x4096x256x5, .f32⟩
  | .hbm, ⟨20, _⟩ => ⟨S8x4096x256x5, .f32⟩
  | .hbm, ⟨21, _⟩ => ⟨S8x1x4096x256x5, .f32⟩
  | .hbm, ⟨22, _⟩ => ⟨S8x4096x256x5, .f32⟩
  | .hbm, ⟨23, _⟩ => ⟨S8x1x4096x256x5, .f32⟩
  | .hbm, ⟨24, _⟩ => ⟨S8x4096x256x5, .f32⟩
  | .hbm, ⟨25, _⟩ => ⟨S8x1x4096x256x5, .f32⟩
  | .hbm, ⟨26, _⟩ => ⟨S8x4096x256x5, .f32⟩
  | .hbm, ⟨27, _⟩ => ⟨S8x4096x256x5, .f32⟩
  | .hbm, ⟨28, _⟩ => ⟨S8x4096x256x5, .f32⟩
  | .hbm, ⟨29, _⟩ => ⟨S8x4096x256x5, .f32⟩
  | .hbm, ⟨30, _⟩ => ⟨S_, .f32⟩
  | .hbm, ⟨31, _⟩ => ⟨S8x4096x256, .f32⟩
  | .hbm, ⟨32, _⟩ => ⟨S8x4096x256x5, .f32⟩
  | .hbm, ⟨33, _⟩ => ⟨S8x4096x256x5, .f32⟩
  | .hbm, ⟨34, _⟩ => ⟨S8x4096x256x5, .f32⟩
  | .hbm, ⟨35, _⟩ => ⟨S_, .f32⟩
  | .hbm, ⟨36, _⟩ => ⟨S8x4096x256, .f32⟩
  | .hbm, ⟨37, _⟩ => ⟨S8x1x4096x256, .f32⟩
  | .hbm, ⟨38, _⟩ => ⟨S8x1x4096x256, .f32⟩
  | .hbm, ⟨39, _⟩ => ⟨S8x2x4096x256, .f32⟩
  | .hbm, ⟨40, _⟩ => ⟨S8x2x4096x225, .f32⟩
  | .hbm, ⟨41, _⟩ => ⟨S8x2x4096x481, .f32⟩
  | _, _ => ⟨S8x2x4096x481, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]

class Facts₀ : Prop where
  slices_S8x2x4096x481_S8x2x4096x256_0_0_0_0 : S8x2x4096x481.Slices ![0, 0, 0, 0] S8x2x4096x256
  pads_S8x2x4096x256_S8x2x4100x256_000_000_400_000 : S8x2x4096x256.Pads (![0, 0, 4, 0] : Fin 4 → Nat) ![0, 0, 0, 0] ![0, 0, 0, 0] S8x2x4100x256
  h_S_ : 0 < S_.numel
  slices_S8x2x4100x256_S8x2x4096x256_0_0_0_0 : S8x2x4100x256.Slices ![0, 0, 0, 0] S8x2x4096x256
  slices_S8x2x4100x256_S8x2x4096x256_0_0_1_0 : S8x2x4100x256.Slices ![0, 0, 1, 0] S8x2x4096x256
  slices_S8x2x4100x256_S8x2x4096x256_0_0_2_0 : S8x2x4100x256.Slices ![0, 0, 2, 0] S8x2x4096x256
  slices_S8x2x4100x256_S8x2x4096x256_0_0_3_0 : S8x2x4100x256.Slices ![0, 0, 3, 0] S8x2x4096x256
  slices_S8x2x4100x256_S8x2x4096x256_0_0_4_0 : S8x2x4100x256.Slices ![0, 0, 4, 0] S8x2x4096x256
  bcast_S8x2x4096x256_S8x2x4096x256x1_0_1_2_3 : S8x2x4096x256.BroadcastsInDim S8x2x4096x256x1 (![0, 1, 2, 3] : Fin 4 → Fin S8x2x4096x256x1.rank)
  concatenates_S8x2x4096x256x1_S8x2x4096x256x1_S8x2x4096x256x1_S8x2x4096x256x1_S8x2x4096x256x1_S8x2x4096x256x5_d4 : Shape.Concatenates [S8x2x4096x256x1, S8x2x4096x256x1, S8x2x4096x256x1, S8x2x4096x256x1, S8x2x4096x256x1] S8x2x4096x256x5 4
  shapeCasts_S8x10x4096x256_S8x2x5x4096x256 : S8x10x4096x256.ShapeCasts S8x2x5x4096x256
  transposes_S8x2x5x4096x256_S8x2x4096x256x5_0_1_3_4_2 : S8x2x5x4096x256.Transposes [0, 1, 3, 4, 2] S8x2x4096x256x5
  slices_S8x2x4096x256x5_S8x1x4096x256x5_0_0_0_0_0 : S8x2x4096x256x5.Slices ![0, 0, 0, 0, 0] S8x1x4096x256x5
  shapeCasts_S8x1x4096x256x5_S8x4096x256x5 : S8x1x4096x256x5.ShapeCasts S8x4096x256x5
  slices_S8x2x4096x256x5_S8x1x4096x256x5_0_1_0_0_0 : S8x2x4096x256x5.Slices ![0, 1, 0, 0, 0] S8x1x4096x256x5
  reducesTo_S8x4096x256x5_S8x4096x256_d3 : S8x4096x256x5.ReducesTo [3] S8x4096x256
  bcast_S8x4096x256_S8x1x4096x256_0_2_3 : S8x4096x256.BroadcastsInDim S8x1x4096x256 (![0, 2, 3] : Fin 3 → Fin S8x1x4096x256.rank)
  concatenates_S8x1x4096x256_S8x1x4096x256_S8x2x4096x256_d1 : Shape.Concatenates [S8x1x4096x256, S8x1x4096x256] S8x2x4096x256 1
  slices_S8x2x4096x481_S8x2x4096x225_0_0_0_256 : S8x2x4096x481.Slices ![0, 0, 0, 256] S8x2x4096x225
  concatenates_S8x2x4096x256_S8x2x4096x225_S8x2x4096x481_d3 : Shape.Concatenates [S8x2x4096x256, S8x2x4096x225] S8x2x4096x481 3

variable [Facts₀]

class Facts : Prop extends Facts₀ where

variable [Facts]
-- ==== Proof.RefRun.lean ====
/-
  The reference program's run, stage by stage.

  The program is a straight line of forty tensor operations, each writing one buffer of its own from buffers written
  earlier. Run from launch contents V, the line leaves every buffer at the fold of the operations' results over V.
  Read at the result buffer, that fold is the last operation's function of its operands' contents, which are folds
  again, and so on down to the two arguments: ONE composed term of all forty operations, in which an intermediate
  with several readers occurs once per reader (the padded band twenty times). This module never forms that term.

  The line is cut into six segments at the intermediates that have several readers. For each segment, over ARBITRARY
  contents W, one small statement per buffer that is still read later says what the segment leaves there: a stage
  function of the two argument arrays, provided W holds the earlier stage functions at the buffers the segment reads;
  and a buffer the segment does not write keeps what W holds. Each statement is a few operations deep. The six are
  then chained from the launch contents, and the general run theorem for a straight line of tensor operations turns
  the fold into the final memory of every weakly fair execution.
-/
import proofs.«116127_j40218073759990_2_alg».proof.Proof.RefRead
import Idealize.ShloMosaic.Lib.StableHlo.Run

noncomputable section

namespace Cert.ReferenceIdeal.RunByStages

open Cert.ReferenceIdeal Cert.ReferenceIdeal.Gen Cert.ReferenceIdeal.ReadP Idealize.ShloMosaic Idealize.ShloMosaic.TcCoe
  Idealize.SL.Sem Idealize.ShloMosaic.StableHlo

variable {F : FTy → Type} [FloatOps F]

/-- @main's 40 operations, in order (a called function's operations stand in its call's place, spelt `TRef.…`). -/
abbrev ops : List (HloOp τ sig (Elt F)) :=
  [ unary main_arg0 main_v0 ((extractStridedSlice S8x2x4096x256 ![0, 0, 0, 0] · slices_S8x2x4096x481_S8x2x4096x256_0_0_0_0) : (⟨S8x2x4096x481, .f32⟩ : BufTy).Contents (Elt F) → (⟨S8x2x4096x256, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x2x4096x256, .f32⟩) main_v0) (TRef.of (T := ⟨S_, .f32⟩) main_call0_v0) (TRef.of (T := ⟨S8x2x4100x256, .f32⟩) main_v1) (fun x v => pad S8x2x4100x256 ![0, 0, 4, 0] ![0, 0, 0, 0] ![0, 0, 0, 0] x v pads_S8x2x4096x256_S8x2x4100x256_000_000_400_000 h_S_),
    unary main_v1 main_v2 ((extractStridedSlice S8x2x4096x256 ![0, 0, 0, 0] · slices_S8x2x4100x256_S8x2x4096x256_0_0_0_0) : (⟨S8x2x4100x256, .f32⟩ : BufTy).Contents (Elt F) → (⟨S8x2x4096x256, .f32⟩ : BufTy).Contents (Elt F)),
    unary main_v1 main_v3 ((extractStridedSlice S8x2x4096x256 ![0, 0, 1, 0] · slices_S8x2x4100x256_S8x2x4096x256_0_0_1_0) : (⟨S8x2x4100x256, .f32⟩ : BufTy).Contents (Elt F) → (⟨S8x2x4096x256, .f32⟩ : BufTy).Contents (Elt F)),
    unary main_v1 main_v4 ((extractStridedSlice S8x2x4096x256 ![0, 0, 2, 0] · slices_S8x2x4100x256_S8x2x4096x256_0_0_2_0) : (⟨S8x2x4100x256, .f32⟩ : BufTy).Contents (Elt F) → (⟨S8x2x4096x256, .f32⟩ : BufTy).Contents (Elt F)),
    unary main_v1 main_v5 ((extractStridedSlice S8x2x4096x256 ![0, 0, 3, 0] · slices_S8x2x4100x256_S8x2x4096x256_0_0_3_0) : (⟨S8x2x4100x256, .f32⟩ : BufTy).Contents (Elt F) → (⟨S8x2x4096x256, .f32⟩ : BufTy).Contents (Elt F)),
    unary main_v1 main_v6 ((extractStridedSlice S8x2x4096x256 ![0, 0, 4, 0] · slices_S8x2x4100x256_S8x2x4096x256_0_0_4_0) : (⟨S8x2x4100x256, .f32⟩ : BufTy).Contents (Elt F) → (⟨S8x2x4096x256, .f32⟩ : BufTy).Contents (Elt F)),
    unary main_v2 main_v7 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    unary main_v3 main_v8 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    unary main_v4 main_v9 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    unary main_v5 main_v10 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    unary main_v6 main_v11 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    nary ![main_v7, main_v8, main_v9, main_v10, main_v11] main_v12 (fun u => concatenate S8x2x4096x256x5 4 [⟨S8x2x4096x256x1, u 0⟩, ⟨S8x2x4096x256x1, u 1⟩, ⟨S8x2x4096x256x1, u 2⟩, ⟨S8x2x4096x256x1, u 3⟩, ⟨S8x2x4096x256x1, u 4⟩] concatenates_S8x2x4096x256x1_S8x2x4096x256x1_S8x2x4096x256x1_S8x2x4096x256x1_S8x2x4096x256x1_S8x2x4096x256x5_d4),
    reshape main_arg1 main_v13 rfl shapeCasts_S8x10x4096x256_S8x2x5x4096x256,
    unary main_v13 main_v14 ((transpose S8x2x4096x256x5 [0, 1, 3, 4, 2] · transposes_S8x2x5x4096x256_S8x2x4096x256x5_0_1_3_4_2) : (⟨S8x2x5x4096x256, .f32⟩ : BufTy).Contents (Elt F) → (⟨S8x2x4096x256x5, .f32⟩ : BufTy).Contents (Elt F)),
    unary main_v12 main_v15 ((extractStridedSlice S8x1x4096x256x5 ![0, 0, 0, 0, 0] · slices_S8x2x4096x256x5_S8x1x4096x256x5_0_0_0_0_0) : (⟨S8x2x4096x256x5, .f32⟩ : BufTy).Contents (Elt F) → (⟨S8x1x4096x256x5, .f32⟩ : BufTy).Contents (Elt F)),
    reshape main_v15 main_v16 rfl shapeCasts_S8x1x4096x256x5_S8x4096x256x5,
    unary main_v12 main_v17 ((extractStridedSlice S8x1x4096x256x5 ![0, 1, 0, 0, 0] · slices_S8x2x4096x256x5_S8x1x4096x256x5_0_1_0_0_0) : (⟨S8x2x4096x256x5, .f32⟩ : BufTy).Contents (Elt F) → (⟨S8x1x4096x256x5, .f32⟩ : BufTy).Contents (Elt F)),
    reshape main_v17 main_v18 rfl shapeCasts_S8x1x4096x256x5_S8x4096x256x5,
    unary main_v14 main_v19 ((extractStridedSlice S8x1x4096x256x5 ![0, 0, 0, 0, 0] · slices_S8x2x4096x256x5_S8x1x4096x256x5_0_0_0_0_0) : (⟨S8x2x4096x256x5, .f32⟩ : BufTy).Contents (Elt F) → (⟨S8x1x4096x256x5, .f32⟩ : BufTy).Contents (Elt F)),
    reshape main_v19 main_v20 rfl shapeCasts_S8x1x4096x256x5_S8x4096x256x5,
    unary main_v14 main_v21 ((extractStridedSlice S8x1x4096x256x5 ![0, 1, 0, 0, 0] · slices_S8x2x4096x256x5_S8x1x4096x256x5_0_1_0_0_0) : (⟨S8x2x4096x256x5, .f32⟩ : BufTy).Contents (Elt F) → (⟨S8x1x4096x256x5, .f32⟩ : BufTy).Contents (Elt F)),
    reshape main_v21 main_v22 rfl shapeCasts_S8x1x4096x256x5_S8x4096x256x5,
    binary main_v16 main_v20 main_v23 (mulf : (⟨S8x4096x256x5, .f32⟩ : BufTy).Contents (Elt F) → (⟨S8x4096x256x5, .f32⟩ : BufTy).Contents (Elt F) → (⟨S8x4096x256x5, .f32⟩ : BufTy).Contents (Elt F)),
    binary main_v18 main_v22 main_v24 (mulf : (⟨S8x4096x256x5, .f32⟩ : BufTy).Contents (Elt F) → (⟨S8x4096x256x5, .f32⟩ : BufTy).Contents (Elt F) → (⟨S8x4096x256x5, .f32⟩ : BufTy).Contents (Elt F)),
    binary main_v23 main_v24 main_v25 (subf : (⟨S8x4096x256x5, .f32⟩ : BufTy).Contents (Elt F) → (⟨S8x4096x256x5, .f32⟩ : BufTy).Contents (Elt F) → (⟨S8x4096x256x5, .f32⟩ : BufTy).Contents (Elt F)),
    nullary main_cst (constant S_ .f32 0x00000000#32),
    binary main_v25 main_cst main_v26 ((fun x v => Host.reduceAdd x v reducesTo_S8x4096x256x5_S8x4096x256_d3 h_S_) : (⟨S8x4096x256x5, .f32⟩ : BufTy).Contents (Elt F) → (⟨S_, .f32⟩ : BufTy).Contents (Elt F) → (⟨S8x4096x256, .f32⟩ : BufTy).Contents (Elt F)),
    binary main_v18 main_v20 main_v27 (mulf : (⟨S8x4096x256x5, .f32⟩ : BufTy).Contents (Elt F) → (⟨S8x4096x256x5, .f32⟩ : BufTy).Contents (Elt F) → (⟨S8x4096x256x5, .f32⟩ : BufTy).Contents (Elt F)),
    binary main_v16 main_v22 main_v28 (mulf : (⟨S8x4096x256x5, .f32⟩ : BufTy).Contents (Elt F) → (⟨S8x4096x256x5, .f32⟩ : BufTy).Contents (Elt F) → (⟨S8x4096x256x5, .f32⟩ : BufTy).Contents (Elt F)),
    binary main_v27 main_v28 main_v29 (addf : (⟨S8x4096x256x5, .f32⟩ : BufTy).Contents (Elt F) → (⟨S8x4096x256x5, .f32⟩ : BufTy).Contents (Elt F) → (⟨S8x4096x256x5, .f32⟩ : BufTy).Contents (Elt F)),
    nullary main_cst_0 (constant S_ .f32 0x00000000#32),
    binary main_v29 main_cst_0 main_v30 ((fun x v => Host.reduceAdd x v reducesTo_S8x4096x256x5_S8x4096x256_d3 h_S_) : (⟨S8x4096x256x5, .f32⟩ : BufTy).Contents (Elt F) → (⟨S_, .f32⟩ : BufTy).Contents (Elt F) → (⟨S8x4096x256, .f32⟩ : BufTy).Contents (Elt F)),
    unary main_v26 main_v31 (broadcastInDim S8x1x4096x256 ![0, 2, 3] bcast_S8x4096x256_S8x1x4096x256_0_2_3 : (⟨S8x4096x256, .f32⟩ : BufTy).Contents (Elt F) → (⟨S8x1x4096x256, .f32⟩ : BufTy).Contents (Elt F)),
    unary main_v30 main_v32 (broadcastInDim S8x1x4096x256 ![0, 2, 3] bcast_S8x4096x256_S8x1x4096x256_0_2_3 : (⟨S8x4096x256, .f32⟩ : BufTy).Contents (Elt F) → (⟨S8x1x4096x256, .f32⟩ : BufTy).Contents (Elt F)),
    binary main_v31 main_v32 main_v33 ((fun a b => concatenate S8x2x4096x256 1 [⟨S8x1x4096x256, a⟩, ⟨S8x1x4096x256, b⟩] concatenates_S8x1x4096x256_S8x1x4096x256_S8x2x4096x256_d1) : (⟨S8x1x4096x256, .f32⟩ : BufTy).Contents (Elt F) → (⟨S8x1x4096x256, .f32⟩ : BufTy).Contents (Elt F) → (⟨S8x2x4096x256, .f32⟩ : BufTy).Contents (Elt F)),
    unary main_arg0 main_v34 ((extractStridedSlice S8x2x4096x225 ![0, 0, 0, 256] · slices_S8x2x4096x481_S8x2x4096x225_0_0_0_256) : (⟨S8x2x4096x481, .f32⟩ : BufTy).Contents (Elt F) → (⟨S8x2x4096x225, .f32⟩ : BufTy).Contents (Elt F)),
    binary main_v33 main_v34 main_v35 ((fun a b => concatenate S8x2x4096x481 3 [⟨S8x2x4096x256, a⟩, ⟨S8x2x4096x225, b⟩] concatenates_S8x2x4096x256_S8x2x4096x225_S8x2x4096x481_d3) : (⟨S8x2x4096x256, .f32⟩ : BufTy).Contents (Elt F) → (⟨S8x2x4096x225, .f32⟩ : BufTy).Contents (Elt F) → (⟨S8x2x4096x481, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., binary_bufs_sub .., binary_bufs_sub .., binary_bufs_sub .., binary_bufs_sub .., nullary_bufs_sub .., binary_bufs_sub .., unary_bufs_sub .., unary_bufs_sub .., binary_bufs_sub .., unary_bufs_sub .., binary_bufs_sub ..⟩

/-! ### The fold over a concatenation, and a five-operand operation at its result -/

/-- Running two lines one after the other from contents `V` is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- An operation over a LITERAL family of five references leaves at its result its function of the five operands'
    contents, each read at its own reference. -/
theorem nary5_result {x a b c d y : Ref sig .tc}
    (f : ((k : Fin 5) → ((![x, a, b, c, d] : Fin 5 → Ref sig .tc) k).ty.Contents (Elt F)) → y.ty.Contents (Elt F)) (hxs hy)
    (V : Valuation τ sig (Elt F)) :
    (nary (τ := τ) ![x, a, b, c, d] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc d)) (fun i => i.elim0)))))) := by
  rw [nary_result]; congr 1; funext k; fin_cases k <;> rfl

/-- Reads a reference after a literal line of operations: unfolds the fold, then, outermost operation first, an
    operation's result at its own result reference is its function of its operands' contents, and at any other
    reference what was there before (the two references told apart by computation). -/
macro "stage_results" : tactic =>
  `(tactic| (simp only [after_cons, after_nil]
             repeat (first
               | rw [nullary_result] | rw [unary_result] | rw [binary_result] | rw [reshape_result]
               | rw [nary5_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-! ### The six segments of the program

The program is cut where a value has several readers: after the padded band, after the five-frame stack, after the
regrouped coefficients, after the four sample and coefficient arrays, after the two sums. -/

/-- Operations 0 … 3 of the program. -/
abbrev seg1 : List (HloOp τ sig (Elt F)) :=
  [ unary main_arg0 main_v0 ((extractStridedSlice S8x2x4096x256 ![0, 0, 0, 0] · slices_S8x2x4096x481_S8x2x4096x256_0_0_0_0) : (⟨S8x2x4096x481, .f32⟩ : BufTy).Contents (Elt F) → (⟨S8x2x4096x256, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x2x4096x256, .f32⟩) main_v0) (TRef.of (T := ⟨S_, .f32⟩) main_call0_v0) (TRef.of (T := ⟨S8x2x4100x256, .f32⟩) main_v1) (fun x v => pad S8x2x4100x256 ![0, 0, 4, 0] ![0, 0, 0, 0] ![0, 0, 0, 0] x v pads_S8x2x4096x256_S8x2x4100x256_000_000_400_000 h_S_) ]

/-- Operations 4 … 14 of the program. -/
abbrev seg2 : List (HloOp τ sig (Elt F)) :=
  [ unary main_v1 main_v2 ((extractStridedSlice S8x2x4096x256 ![0, 0, 0, 0] · slices_S8x2x4100x256_S8x2x4096x256_0_0_0_0) : (⟨S8x2x4100x256, .f32⟩ : BufTy).Contents (Elt F) → (⟨S8x2x4096x256, .f32⟩ : BufTy).Contents (Elt F)),
    unary main_v1 main_v3 ((extractStridedSlice S8x2x4096x256 ![0, 0, 1, 0] · slices_S8x2x4100x256_S8x2x4096x256_0_0_1_0) : (⟨S8x2x4100x256, .f32⟩ : BufTy).Contents (Elt F) → (⟨S8x2x4096x256, .f32⟩ : BufTy).Contents (Elt F)),
    unary main_v1 main_v4 ((extractStridedSlice S8x2x4096x256 ![0, 0, 2, 0] · slices_S8x2x4100x256_S8x2x4096x256_0_0_2_0) : (⟨S8x2x4100x256, .f32⟩ : BufTy).Contents (Elt F) → (⟨S8x2x4096x256, .f32⟩ : BufTy).Contents (Elt F)),
    unary main_v1 main_v5 ((extractStridedSlice S8x2x4096x256 ![0, 0, 3, 0] · slices_S8x2x4100x256_S8x2x4096x256_0_0_3_0) : (⟨S8x2x4100x256, .f32⟩ : BufTy).Contents (Elt F) → (⟨S8x2x4096x256, .f32⟩ : BufTy).Contents (Elt F)),
    unary main_v1 main_v6 ((extractStridedSlice S8x2x4096x256 ![0, 0, 4, 0] · slices_S8x2x4100x256_S8x2x4096x256_0_0_4_0) : (⟨S8x2x4100x256, .f32⟩ : BufTy).Contents (Elt F) → (⟨S8x2x4096x256, .f32⟩ : BufTy).Contents (Elt F)),
    unary main_v2 main_v7 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    unary main_v3 main_v8 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    unary main_v4 main_v9 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    unary main_v5 main_v10 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    unary main_v6 main_v11 (broadcastInDim S8x2x4096x256x1 ![0, 1, 2, 3] bcast_S8x2x4096x256_S8x2x4096x256x1_0_1_2_3 : (⟨S8x2x4096x256, .f32⟩ : BufTy).Contents (Elt F) → (⟨S8x2x4096x256x1, .f32⟩ : BufTy).Contents (Elt F)),
    nary ![main_v7, main_v8, main_v9, main_v10, main_v11] main_v12 (fun u => concatenate S8x2x4096x256x5 4 [⟨S8x2x4096x256x1, u 0⟩, ⟨S8x2x4096x256x1, u 1⟩, ⟨S8x2x4096x256x1, u 2⟩, ⟨S8x2x4096x256x1, u 3⟩, ⟨S8x2x4096x256x1, u 4⟩] concatenates_S8x2x4096x256x1_S8x2x4096x256x1_S8x2x4096x256x1_S8x2x4096x256x1_S8x2x4096x256x1_S8x2x4096x256x5_d4) ]

/-- Operations 15 … 16 of the program. -/
abbrev seg3 : List (HloOp τ sig (Elt F)) :=
  [ reshape main_arg1 main_v13 rfl shapeCasts_S8x10x4096x256_S8x2x5x4096x256,
    unary main_v13 main_v14 ((transpose S8x2x4096x256x5 [0, 1, 3, 4, 2] · transposes_S8x2x5x4096x256_S8x2x4096x256x5_0_1_3_4_2) : (⟨S8x2x5x4096x256, .f32⟩ : BufTy).Contents (Elt F) → (⟨S8x2x4096x256x5, .f32⟩ : BufTy).Contents (Elt F)) ]

/-- Operations 17 … 24 of the program. -/
abbrev seg4 : List (HloOp τ sig (Elt F)) :=
  [ unary main_v12 main_v15 ((extractStridedSlice S8x1x4096x256x5 ![0, 0, 0, 0, 0] · slices_S8x2x4096x256x5_S8x1x4096x256x5_0_0_0_0_0) : (⟨S8x2x4096x256x5, .f32⟩ : BufTy).Contents (Elt F) → (⟨S8x1x4096x256x5, .f32⟩ : BufTy).Contents (Elt F)),
    reshape main_v15 main_v16 rfl shapeCasts_S8x1x4096x256x5_S8x4096x256x5,
    unary main_v12 main_v17 ((extractStridedSlice S8x1x4096x256x5 ![0, 1, 0, 0, 0] · slices_S8x2x4096x256x5_S8x1x4096x256x5_0_1_0_0_0) : (⟨S8x2x4096x256x5, .f32⟩ : BufTy).Contents (Elt F) → (⟨S8x1x4096x256x5, .f32⟩ : BufTy).Contents (Elt F)),
    reshape main_v17 main_v18 rfl shapeCasts_S8x1x4096x256x5_S8x4096x256x5,
    unary main_v14 main_v19 ((extractStridedSlice S8x1x4096x256x5 ![0, 0, 0, 0, 0] · slices_S8x2x4096x256x5_S8x1x4096x256x5_0_0_0_0_0) : (⟨S8x2x4096x256x5, .f32⟩ : BufTy).Contents (Elt F) → (⟨S8x1x4096x256x5, .f32⟩ : BufTy).Contents (Elt F)),
    reshape main_v19 main_v20 rfl shapeCasts_S8x1x4096x256x5_S8x4096x256x5,
    unary main_v14 main_v21 ((extractStridedSlice S8x1x4096x256x5 ![0, 1, 0, 0, 0] · slices_S8x2x4096x256x5_S8x1x4096x256x5_0_1_0_0_0) : (⟨S8x2x4096x256x5, .f32⟩ : BufTy).Contents (Elt F) → (⟨S8x1x4096x256x5, .f32⟩ : BufTy).Contents (Elt F)),
    reshape main_v21 main_v22 rfl shapeCasts_S8x1x4096x256x5_S8x4096x256x5 ]

/-- Operations 25 … 34 of the program. -/
abbrev seg5 : List (HloOp τ sig (Elt F)) :=
  [ binary main_v16 main_v20 main_v23 (mulf : (⟨S8x4096x256x5, .f32⟩ : BufTy).Contents (Elt F) → (⟨S8x4096x256x5, .f32⟩ : BufTy).Contents (Elt F) → (⟨S8x4096x256x5, .f32⟩ : BufTy).Contents (Elt F)),
    binary main_v18 main_v22 main_v24 (mulf : (⟨S8x4096x256x5, .f32⟩ : BufTy).Contents (Elt F) → (⟨S8x4096x256x5, .f32⟩ : BufTy).Contents (Elt F) → (⟨S8x4096x256x5, .f32⟩ : BufTy).Contents (Elt F)),
    binary main_v23 main_v24 main_v25 (subf : (⟨S8x4096x256x5, .f32⟩ : BufTy).Contents (Elt F) → (⟨S8x4096x256x5, .f32⟩ : BufTy).Contents (Elt F) → (⟨S8x4096x256x5, .f32⟩ : BufTy).Contents (Elt F)),
    nullary main_cst (constant S_ .f32 0x00000000#32),
    binary main_v25 main_cst main_v26 ((fun x v => Host.reduceAdd x v reducesTo_S8x4096x256x5_S8x4096x256_d3 h_S_) : (⟨S8x4096x256x5, .f32⟩ : BufTy).Contents (Elt F) → (⟨S_, .f32⟩ : BufTy).Contents (Elt F) → (⟨S8x4096x256, .f32⟩ : BufTy).Contents (Elt F)),
    binary main_v18 main_v20 main_v27 (mulf : (⟨S8x4096x256x5, .f32⟩ : BufTy).Contents (Elt F) → (⟨S8x4096x256x5, .f32⟩ : BufTy).Contents (Elt F) → (⟨S8x4096x256x5, .f32⟩ : BufTy).Contents (Elt F)),
    binary main_v16 main_v22 main_v28 (mulf : (⟨S8x4096x256x5, .f32⟩ : BufTy).Contents (Elt F) → (⟨S8x4096x256x5, .f32⟩ : BufTy).Contents (Elt F) → (⟨S8x4096x256x5, .f32⟩ : BufTy).Contents (Elt F)),
    binary main_v27 main_v28 main_v29 (addf : (⟨S8x4096x256x5, .f32⟩ : BufTy).Contents (Elt F) → (⟨S8x4096x256x5, .f32⟩ : BufTy).Contents (Elt F) → (⟨S8x4096x256x5, .f32⟩ : BufTy).Contents (Elt F)),
    nullary main_cst_0 (constant S_ .f32 0x00000000#32),
    binary main_v29 main_cst_0 main_v30 ((fun x v => Host.reduceAdd x v reducesTo_S8x4096x256x5_S8x4096x256_d3 h_S_) : (⟨S8x4096x256x5, .f32⟩ : BufTy).Contents (Elt F) → (⟨S_, .f32⟩ : BufTy).Contents (Elt F) → (⟨S8x4096x256, .f32⟩ : BufTy).Contents (Elt F)) ]

/-- Operations 35 … 39 of the program. -/
abbrev seg6 : List (HloOp τ sig (Elt F)) :=
  [ unary main_v26 main_v31 (broadcastInDim S8x1x4096x256 ![0, 2, 3] bcast_S8x4096x256_S8x1x4096x256_0_2_3 : (⟨S8x4096x256, .f32⟩ : BufTy).Contents (Elt F) → (⟨S8x1x4096x256, .f32⟩ : BufTy).Contents (Elt F)),
    unary main_v30 main_v32 (broadcastInDim S8x1x4096x256 ![0, 2, 3] bcast_S8x4096x256_S8x1x4096x256_0_2_3 : (⟨S8x4096x256, .f32⟩ : BufTy).Contents (Elt F) → (⟨S8x1x4096x256, .f32⟩ : BufTy).Contents (Elt F)),
    binary main_v31 main_v32 main_v33 ((fun a b => concatenate S8x2x4096x256 1 [⟨S8x1x4096x256, a⟩, ⟨S8x1x4096x256, b⟩] concatenates_S8x1x4096x256_S8x1x4096x256_S8x2x4096x256_d1) : (⟨S8x1x4096x256, .f32⟩ : BufTy).Contents (Elt F) → (⟨S8x1x4096x256, .f32⟩ : BufTy).Contents (Elt F) → (⟨S8x2x4096x256, .f32⟩ : BufTy).Contents (Elt F)),
    unary main_arg0 main_v34 ((extractStridedSlice S8x2x4096x225 ![0, 0, 0, 256] · slices_S8x2x4096x481_S8x2x4096x225_0_0_0_256) : (⟨S8x2x4096x481, .f32⟩ : BufTy).Contents (Elt F) → (⟨S8x2x4096x225, .f32⟩ : BufTy).Contents (Elt F)),
    binary main_v33 main_v34 main_v35 ((fun a b => concatenate S8x2x4096x481 3 [⟨S8x2x4096x256, a⟩, ⟨S8x2x4096x225, b⟩] concatenates_S8x2x4096x256_S8x2x4096x225_S8x2x4096x481_d3) : (⟨S8x2x4096x256, .f32⟩ : BufTy).Contents (Elt F) → (⟨S8x2x4096x225, .f32⟩ : BufTy).Contents (Elt F) → (⟨S8x2x4096x481, .f32⟩ : BufTy).Contents (Elt F)) ]

theorem ops_eq : (ops : List (HloOp τ sig (Elt F))) = seg1 ++ seg2 ++ seg3 ++ seg4 ++ seg5 ++ seg6 := rfl

/-! ### What a segment leaves untouched -/

theorem seg1_keeps_arg0 (W : Valuation τ sig (Elt F)) :
    after (seg1 (F := F)) W (Proc.devRef .tc main_arg0) = W (Proc.devRef .tc main_arg0) := by
  unfold seg1
  stage_results

theorem seg2_keeps_arg0 (W : Valuation τ sig (Elt F)) :
    after (seg2 (F := F)) W (Proc.devRef .tc main_arg0) = W (Proc.devRef .tc main_arg0) := by
  unfold seg2
  stage_results

theorem seg3_keeps_arg0 (W : Valuation τ sig (Elt F)) :
    after (seg3 (F := F)) W (Proc.devRef .tc main_arg0) = W (Proc.devRef .tc main_arg0) := by
  unfold seg3
  stage_results

theorem seg4_keeps_arg0 (W : Valuation τ sig (Elt F)) :
    after (seg4 (F := F)) W (Proc.devRef .tc main_arg0) = W (Proc.devRef .tc main_arg0) := by
  unfold seg4
  stage_results

theorem seg5_keeps_arg0 (W : Valuation τ sig (Elt F)) :
    after (seg5 (F := F)) W (Proc.devRef .tc main_arg0) = W (Proc.devRef .tc main_arg0) := by
  unfold seg5
  stage_results

theorem seg6_keeps_arg0 (W : Valuation τ sig (Elt F)) :
    after (seg6 (F := F)) W (Proc.devRef .tc main_arg0) = W (Proc.devRef .tc main_arg0) := by
  unfold seg6
  stage_results

theorem seg1_keeps_arg1 (W : Valuation τ sig (Elt F)) :
    after (seg1 (F := F)) W (Proc.devRef .tc main_arg1) = W (Proc.devRef .tc main_arg1) := by
  unfold seg1
  stage_results

theorem seg2_keeps_arg1 (W : Valuation τ sig (Elt F)) :
    after (seg2 (F := F)) W (Proc.devRef .tc main_arg1) = W (Proc.devRef .tc main_arg1) := by
  unfold seg2
  stage_results

theorem seg3_keeps_arg1 (W : Valuation τ sig (Elt F)) :
    after (seg3 (F := F)) W (Proc.devRef .tc main_arg1) = W (Proc.devRef .tc main_arg1) := by
  unfold seg3
  stage_results

theorem seg4_keeps_arg1 (W : Valuation τ sig (Elt F)) :
    after (seg4 (F := F)) W (Proc.devRef .tc main_arg1) = W (Proc.devRef .tc main_arg1) := by
  unfold seg4
  stage_results

theorem seg5_keeps_arg1 (W : Valuation τ sig (Elt F)) :
    after (seg5 (F := F)) W (Proc.devRef .tc main_arg1) = W (Proc.devRef .tc main_arg1) := by
  unfold seg5
  stage_results

theorem seg6_keeps_arg1 (W : Valuation τ sig (Elt F)) :
    after (seg6 (F := F)) W (Proc.devRef .tc main_arg1) = W (Proc.devRef .tc main_arg1) := by
  unfold seg6
  stage_results

theorem seg3_keeps_v12 (W : Valuation τ sig (Elt F)) :
    after (seg3 (F := F)) W (Proc.devRef .tc main_v12) = W (Proc.devRef .tc main_v12) := by
  unfold seg3
  stage_results

/-! ### What a segment computes, from what the segments before it left -/

theorem seg1_v1 (W : Valuation τ sig (Elt F)) (x0 : (⟨S8x2x4096x481, .f32⟩ : BufTy).Contents (Elt F)) (x1 : (⟨S8x10x4096x256, .f32⟩ : BufTy).Contents (Elt F))
    (h0 : W (Proc.devRef .tc main_arg0) = x0) :
    after (seg1 (F := F)) W (Proc.devRef .tc main_v1) = val_main_v1 (F := F) x0 := by
  unfold seg1
  stage_results
  rw [h0]
  rfl

theorem seg2_v12 (W : Valuation τ sig (Elt F)) (x0 : (⟨S8x2x4096x481, .f32⟩ : BufTy).Contents (Elt F)) (x1 : (⟨S8x10x4096x256, .f32⟩ : BufTy).Contents (Elt F))
    (h1 : W (Proc.devRef .tc main_v1) = val_main_v1 (F := F) x0) :
    after (seg2 (F := F)) W (Proc.devRef .tc main_v12) = val_main_v12 (F := F) x0 := by
  unfold seg2
  stage_results
  rw [h1]
  rfl

theorem seg3_v14 (W : Valuation τ sig (Elt F)) (x0 : (⟨S8x2x4096x481, .f32⟩ : BufTy).Contents (Elt F)) (x1 : (⟨S8x10x4096x256, .f32⟩ : BufTy).Contents (Elt F))
    (h1 : W (Proc.devRef .tc main_arg1) = x1) :
    after (seg3 (F := F)) W (Proc.devRef .tc main_v14) = val_main_v14 (F := F) x1 := by
  unfold seg3
  stage_results
  rw [h1]
  rfl

theorem seg4_v16 (W : Valuation τ sig (Elt F)) (x0 : (⟨S8x2x4096x481, .f32⟩ : BufTy).Contents (Elt F)) (x1 : (⟨S8x10x4096x256, .f32⟩ : BufTy).Contents (Elt F))
    (h12 : W (Proc.devRef .tc main_v12) = val_main_v12 (F := F) x0) :
    after (seg4 (F := F)) W (Proc.devRef .tc main_v16) = val_main_v16 (F := F) x0 := by
  unfold seg4
  stage_results
  rw [h12]
  rfl

theorem seg4_v18 (W : Valuation τ sig (Elt F)) (x0 : (⟨S8x2x4096x481, .f32⟩ : BufTy).Contents (Elt F)) (x1 : (⟨S8x10x4096x256, .f32⟩ : BufTy).Contents (Elt F))
    (h12 : W (Proc.devRef .tc main_v12) = val_main_v12 (F := F) x0) :
    after (seg4 (F := F)) W (Proc.devRef .tc main_v18) = val_main_v18 (F := F) x0 := by
  unfold seg4
  stage_results
  rw [h12]
  rfl

theorem seg4_v20 (W : Valuation τ sig (Elt F)) (x0 : (⟨S8x2x4096x481, .f32⟩ : BufTy).Contents (Elt F)) (x1 : (⟨S8x10x4096x256, .f32⟩ : BufTy).Contents (Elt F))
    (h14 : W (Proc.devRef .tc main_v14) = val_main_v14 (F := F) x1) :
    after (seg4 (F := F)) W (Proc.devRef .tc main_v20) = val_main_v20 (F := F) x1 := by
  unfold seg4
  stage_results
  rw [h14]
  rfl

theorem seg4_v22 (W : Valuation τ sig (Elt F)) (x0 : (⟨S8x2x4096x481, .f32⟩ : BufTy).Contents (Elt F)) (x1 : (⟨S8x10x4096x256, .f32⟩ : BufTy).Contents (Elt F))
    (h14 : W (Proc.devRef .tc main_v14) = val_main_v14 (F := F) x1) :
    after (seg4 (F := F)) W (Proc.devRef .tc main_v22) = val_main_v22 (F := F) x1 := by
  unfold seg4
  stage_results
  rw [h14]
  rfl

theorem seg5_v26 (W : Valuation τ sig (Elt F)) (x0 : (⟨S8x2x4096x481, .f32⟩ : BufTy).Contents (Elt F)) (x1 : (⟨S8x10x4096x256, .f32⟩ : BufTy).Contents (Elt F))
    (h16 : W (Proc.devRef .tc main_v16) = val_main_v16 (F := F) x0)
    (h18 : W (Proc.devRef .tc main_v18) = val_main_v18 (F := F) x0)
    (h20 : W (Proc.devRef .tc main_v20) = val_main_v20 (F := F) x1)
    (h22 : W (Proc.devRef .tc main_v22) = val_main_v22 (F := F) x1) :
    after (seg5 (F := F)) W (Proc.devRef .tc main_v26) = val_main_v26 (F := F) x0 x1 := by
  unfold seg5
  stage_results
  rw [h16, h18, h20, h22]
  rfl

theorem seg5_v30 (W : Valuation τ sig (Elt F)) (x0 : (⟨S8x2x4096x481, .f32⟩ : BufTy).Contents (Elt F)) (x1 : (⟨S8x10x4096x256, .f32⟩ : BufTy).Contents (Elt F))
    (h16 : W (Proc.devRef .tc main_v16) = val_main_v16 (F := F) x0)
    (h18 : W (Proc.devRef .tc main_v18) = val_main_v18 (F := F) x0)
    (h20 : W (Proc.devRef .tc main_v20) = val_main_v20 (F := F) x1)
    (h22 : W (Proc.devRef .tc main_v22) = val_main_v22 (F := F) x1) :
    after (seg5 (F := F)) W (Proc.devRef .tc main_v30) = val_main_v30 (F := F) x0 x1 := by
  unfold seg5
  stage_results
  rw [h16, h18, h20, h22]
  rfl

theorem seg6_v35 (W : Valuation τ sig (Elt F)) (x0 : (⟨S8x2x4096x481, .f32⟩ : BufTy).Contents (Elt F)) (x1 : (⟨S8x10x4096x256, .f32⟩ : BufTy).Contents (Elt F))
    (h26 : W (Proc.devRef .tc main_v26) = val_main_v26 (F := F) x0 x1)
    (h30 : W (Proc.devRef .tc main_v30) = val_main_v30 (F := F) x0 x1)
    (h0 : W (Proc.devRef .tc main_arg0) = x0) :
    after (seg6 (F := F)) W (Proc.devRef .tc main_v35) = val_main_v35 (F := F) x0 x1 := by
  unfold seg6
  stage_results
  rw [h26, h30, h0]
  rfl

/-! ### The whole program

The contents after the whole line are the last segment's from the fifth's from … from the launch contents. Each
carried fact says what one reference holds after a segment, as a stage function of the two argument arrays; a
segment's fact needs only the facts about the references it reads. -/

/-- The fold over the whole line, segment by segment. -/
theorem after_ops (V : Valuation τ sig (Elt F)) :
    after (ops (F := F)) V = after seg6 (after seg5 (after seg4 (after seg3 (after seg2 (after seg1 V))))) := by
  rw [ops_eq]; simp only [after_append]

/-- The result buffer ends at the last stage function of the two argument arrays. -/
theorem result_eq (V : Valuation τ sig (Elt F)) :
    after (ops (F := F)) V (Proc.devRef .tc main_v35)
      = val_main_v35 (F := F) (V (Proc.devRef .tc main_arg0)) (V (Proc.devRef .tc main_arg1)) := by
  rw [after_ops]
  have a1 := seg1_keeps_arg0 (F := F) V
  have b1 := seg1_keeps_arg1 (F := F) V
  have p1 := seg1_v1 V (V (Proc.devRef .tc main_arg0)) (V (Proc.devRef .tc main_arg1)) rfl
  have a2 := (seg2_keeps_arg0 _).trans a1
  have b2 := (seg2_keeps_arg1 _).trans b1
  have p12 := seg2_v12 _ (V (Proc.devRef .tc main_arg0)) (V (Proc.devRef .tc main_arg1)) p1
  have a3 := (seg3_keeps_arg0 _).trans a2
  have q12 := (seg3_keeps_v12 _).trans p12
  have p14 := seg3_v14 _ (V (Proc.devRef .tc main_arg0)) (V (Proc.devRef .tc main_arg1)) b2
  have a4 := (seg4_keeps_arg0 _).trans a3
  have p16 := seg4_v16 _ (V (Proc.devRef .tc main_arg0)) (V (Proc.devRef .tc main_arg1)) q12
  have p18 := seg4_v18 _ (V (Proc.devRef .tc main_arg0)) (V (Proc.devRef .tc main_arg1)) q12
  have p20 := seg4_v20 _ (V (Proc.devRef .tc main_arg0)) (V (Proc.devRef .tc main_arg1)) p14
  have p22 := seg4_v22 _ (V (Proc.devRef .tc main_arg0)) (V (Proc.devRef .tc main_arg1)) p14
  have a5 := (seg5_keeps_arg0 _).trans a4
  have p26 := seg5_v26 _ (V (Proc.devRef .tc main_arg0)) (V (Proc.devRef .tc main_arg1)) p16 p18 p20 p22
  have p30 := seg5_v30 _ (V (Proc.devRef .tc main_arg0)) (V (Proc.devRef .tc main_arg1)) p16 p18 p20 p22
  exact seg6_v35 _ (V (Proc.devRef .tc main_arg0)) (V (Proc.devRef .tc main_arg1)) p26 p30 a5

/-- No operation writes the first argument. -/
theorem arg0_eq (V : Valuation τ sig (Elt F)) :
    after (ops (F := F)) V (Proc.devRef .tc main_arg0) = V (Proc.devRef .tc main_arg0) := by
  rw [after_ops, seg6_keeps_arg0, seg5_keeps_arg0, seg4_keeps_arg0, seg3_keeps_arg0, seg2_keeps_arg0, seg1_keeps_arg0]

/-- No operation writes the second argument. -/
theorem arg1_eq (V : Valuation τ sig (Elt F)) :
    after (ops (F := F)) V (Proc.devRef .tc main_arg1) = V (Proc.devRef .tc main_arg1) := by
  rw [after_ops, seg6_keeps_arg1, seg5_keeps_arg1, seg4_keeps_arg1, seg3_keeps_arg1, seg2_keeps_arg1, seg1_keeps_arg1]

/-- On every device, for any float values, from any memory with zero counters: every weakly fair execution of the
    program terminates with the result buffer at the last stage function of the two argument arrays and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = Cert.ReferenceIdeal.ReadP.val_main_v35 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (result_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RunByStages

end
-- ==== Proof.FirSpec.lean ====
/-
  A causal five-tap complex filter along time, as ONE function of the two argument arrays.

  The spectrogram array `A` is [batch 8, channel 2 (real, imaginary), time 4096, frequency 481]; the
  coefficient array `C` is [batch 8, 10 = 2 × 5 taps, time 4096, frequency 256]. On the 256 filtered
  frequencies the output at time τ is the complex sum over the taps k = 0 … 4 of the sample at time
  τ + k − 4 (zero before time 0) times the tap's coefficient at time τ:

      real  = Σₖ (pᵣ·cᵣ − pᵢ·cᵢ)        imaginary = Σₖ (pᵢ·cᵣ + pᵣ·cᵢ)

  with cᵣ = C[b, k, τ, f] and cᵢ = C[b, 5 + k, τ, f]; the remaining 225 frequencies pass through.

  The same sum can be formed by a running accumulator, ((((z + a₀) − b₀) + a₁) − b₁) + …; over the
  extended reals the two groupings agree because only associativity and commutativity of addition are
  used (x − y is x + (−y)): no term is moved across a negation, so no finiteness is needed.
-/
import Idealize.ShloMosaic.PureOps.Ideal
import Idealize.ShloMosaic.PureOps.Ideal.Laws
import Idealize.ShloMosaic.Lib.ValueIdx

noncomputable section

open scoped BigOperators

namespace Cert.FirSpec

open Idealize.ShloMosaic Idealize.ShloMosaic.ValueIdx

/-- The spectrogram array's shape and the coefficient array's. -/
abbrev SpecShape : Shape := ⟨4, ![8, 2, 4096, 481]⟩
abbrev CoefShape : Shape := ⟨4, ![8, 10, 4096, 256]⟩

/-- Sample `k` of the five-sample window that ends at time `τ`: channel `c` of the filtered band at time
    `τ + k − 4`, and zero where that time is negative (the causal padding). -/
def tap (A : SpecShape.Idx → EReal) (b : Fin 8) (c : Fin 2) (τ : Fin 4096) (l : Fin 256) (k : Fin 5) : EReal :=
  if h : 4 ≤ τ.val + k.val then
    A (ix4 b c (⟨τ.val + k.val - 4, by have := τ.isLt; have := k.isLt; omega⟩ : Fin 4096)
      (⟨l.val, by have := l.isLt; omega⟩ : Fin 481))
  else 0

/-- Tap `k`'s real coefficient at time `τ`: row `k` of the ten coefficient rows. -/
def coefRe (C : CoefShape.Idx → EReal) (b : Fin 8) (τ : Fin 4096) (l : Fin 256) (k : Fin 5) : EReal :=
  C (ix4 b (⟨k.val, by have := k.isLt; omega⟩ : Fin 10) τ l)

/-- Tap `k`'s imaginary coefficient at time `τ`: row `5 + k`. -/
def coefIm (C : CoefShape.Idx → EReal) (b : Fin 8) (τ : Fin 4096) (l : Fin 256) (k : Fin 5) : EReal :=
  C (ix4 b (⟨5 + k.val, by have := k.isLt; omega⟩ : Fin 10) τ l)

/-- The real part of the filtered sample, summed over the taps from the zero word. -/
def re (A : SpecShape.Idx → EReal) (C : CoefShape.Idx → EReal) (b : Fin 8) (τ : Fin 4096) (l : Fin 256) : EReal :=
  Ideal.ofBits .f32 0x00000000#32
    + ∑ k : Fin 5, (tap A b 0 τ l k * coefRe C b τ l k - tap A b 1 τ l k * coefIm C b τ l k)

/-- The imaginary part. -/
def im (A : SpecShape.Idx → EReal) (C : CoefShape.Idx → EReal) (b : Fin 8) (τ : Fin 4096) (l : Fin 256) : EReal :=
  Ideal.ofBits .f32 0x00000000#32
    + ∑ k : Fin 5, (tap A b 1 τ l k * coefRe C b τ l k + tap A b 0 τ l k * coefIm C b τ l k)

/-- The whole result array: the filtered band on frequencies below 256, the input itself above. -/
def filtered (A : SpecShape.Idx → EReal) (C : CoefShape.Idx → EReal) : SpecShape.Idx → EReal := fun i =>
  if h : (i 3).val < 256 then
    (if (i 1).val = 0 then re A C (i 0) (i 2) ⟨(i 3).val, h⟩ else im A C (i 0) (i 2) ⟨(i 3).val, h⟩)
  else A i

/-- A running accumulator that adds one product and subtracts another per tap is the sum of the
    differences: both sides are the same ten terms added up, regrouped. -/
theorem chain_sub_eq_sum (z : EReal) (a b : Fin 5 → EReal) :
    z + a 0 - b 0 + a 1 - b 1 + a 2 - b 2 + a 3 - b 3 + a 4 - b 4 = z + ∑ k : Fin 5, (a k - b k) := by
  simp only [Fin.sum_univ_five, sub_eq_add_neg]
  ac_rfl

/-- A running accumulator that adds two products per tap is the sum of the pairs. -/
theorem chain_add_eq_sum (z : EReal) (a b : Fin 5 → EReal) :
    z + a 0 + b 0 + a 1 + b 1 + a 2 + b 2 + a 3 + b 3 + a 4 + b 4 = z + ∑ k : Fin 5, (a k + b k) := by
  simp only [Fin.sum_univ_five]
  ac_rfl

end Cert.FirSpec

end
-- ==== Proof.RefIsFir.lean ====
/-
  The reference program computes the causal five-tap complex filter, read one element at a time.

  The reference cuts the 256 filtered frequencies out of the spectrogram, puts four zero rows before time 0, and joins
  five copies of that padded band, copy k starting k rows further on, along a new last axis: entry (b, c, τ, f, k) of
  the join is the padded band at row τ + k, that is the input at time τ + k − 4, and zero while τ + k < 4. The ten
  coefficient rows are regrouped as two parts of five taps with the tap axis moved last, so part c, tap k is row
  5·c + k. Part 0 / part 1 of each five-axis array, with the unit part axis reshaped away, are the real / imaginary
  samples and coefficients; the two products are combined per tap and summed over the taps from the zero word; the
  real and imaginary sums are joined on the channel axis, and that band is joined with the 225 untouched frequencies.

  Every step below is an identity between indices: a slice adds its offset, a pad subtracts its low padding (or gives
  the padding value), a join picks the piece that holds the coordinate, a reshape splits a row-major position back into
  coordinates (division and remainder by literals), a transpose permutes coordinates. No step uses any property of the
  extended reals beyond the definitions of their sum, difference and product, so no finiteness is needed.
-/
import proofs.«116127_j40218073759990_2_alg».proof.Proof.RefRead
import proofs.«116127_j40218073759990_2_alg».proof.Proof.FirSpec
import Idealize.ShloMosaic.Lib.KernelVsHost
import Idealize.ShloMosaic.Lib.Pipeline.Value
import Idealize.ShloMosaic.Lib.ValueIdx
import Idealize.ShloMosaic.PureOps.Ideal.Laws

noncomputable section

open scoped BigOperators

namespace Cert.RefIsFir

open Cert.ReferenceIdeal Cert.ReferenceIdeal.Gen Cert.ReferenceIdeal.ReadP Cert.FirSpec Idealize.ShloMosaic
  Idealize.ShloMosaic.ValueIdx

/-- The value the band is padded with is the integer zero converted exactly, that is, zero. -/
theorem padValue_eq_zero : val_main_call0_v0 (F := Ideal) (Shape.Idx.first h_S_) = 0 := by
  rw [val_main_call0_v0_apply, val_main_c_apply]
  show (((0#32 : BitVec 32).toInt : ℝ) : EReal) = 0
  simp

/-- The padded band at a row at or past the four padding rows is the input four rows earlier. -/
theorem padded_of_le (x0 : (⟨S8x2x4096x481, .f32⟩ : BufTy).Contents (Elt Ideal))
    (b : Fin 8) (c : Fin 2) (s : Fin 4100) (l : Fin 256) (hs : 4 ≤ s.val) :
    val_main_v1 (F := Ideal) x0 (ix4 b c s l)
      = x0 (ix4 b c (⟨s.val - 4, by have := s.isLt; omega⟩ : Fin 4096) (⟨l.val, by have := l.isLt; omega⟩ : Fin 481)) := by
  unfold val_main_v1
  refine (pad_apply_of_inside _ _ _ (val_main_v0 (F := Ideal) x0) _ _ h_S_ (ix4 b c s l)
    (ix4 b c (⟨s.val - 4, by have := s.isLt; omega⟩ : Fin 4096) l) (fun a => ?_)).trans ?_
  · match a with
    | ⟨0, _⟩ => show b.val = 0 + b.val * (0 + 1); omega
    | ⟨1, _⟩ => show c.val = 0 + c.val * (0 + 1); omega
    | ⟨2, _⟩ => show s.val = 4 + (s.val - 4) * (0 + 1); omega
    | ⟨3, _⟩ => show l.val = 0 + l.val * (0 + 1); omega
  · rw [val_main_v0_apply]
    exact congrArg x0 (funext fun a => Fin.ext (by
      match a with
      | ⟨0, _⟩ => rfl
      | ⟨1, _⟩ => rfl
      | ⟨2, _⟩ => rfl
      | ⟨3, _⟩ => rfl))

/-- The padded band on one of the four padding rows is zero. -/
theorem padded_of_lt (x0 : (⟨S8x2x4096x481, .f32⟩ : BufTy).Contents (Elt Ideal))
    (b : Fin 8) (c : Fin 2) (s : Fin 4100) (l : Fin 256) (hs : s.val < 4) :
    val_main_v1 (F := Ideal) x0 (ix4 b c s l) = 0 := by
  unfold val_main_v1
  refine (pad_apply_of_not_inside _ _ _ (val_main_v0 (F := Ideal) x0) _ _ h_S_ (ix4 b c s l) (2 : Fin 4) ?_).trans
    padValue_eq_zero
  intro h
  have h1 : (4 : Nat) ≤ s.val := h.1
  omega

/-! ### The frames: five shifted copies of the padded band, joined on a new last axis

Piece `n` of the join has extent one on the joined axis and is the padded band read `n` rows further on, so the
frame array at tap `k` is the padded band at row `τ + k`: the input at time `τ + k − 4`, or zero before time 0. -/

theorem frames_piece0 (x0 : (⟨S8x2x4096x481, .f32⟩ : BufTy).Contents (Elt Ideal))
    (b : Fin 8) (c : Fin 2) (τ : Fin 4096) (l : Fin 256) :
    val_main_v12 (F := Ideal) x0 (ix5 b c τ l (⟨0, by omega⟩ : Fin 5))
      = val_main_v1 (F := Ideal) x0 (ix4 b c (⟨τ.val + 0, by have := τ.isLt; omega⟩ : Fin 4100) l) := by
  unfold val_main_v12
  refine (concatenate_apply_piece _ _ _ (ix5 b c τ l (⟨0, by omega⟩ : Fin 5)) 0 (by show (0 : Nat) < 5; omega) S8x2x4096x256x1
    (val_main_v7 (F := Ideal) x0) rfl rfl 0 rfl (ix5 b c τ l (0 : Fin 1)) (fun a ha => ?_) rfl).trans ?_
  · match a with
    | ⟨0, _⟩ => rfl
    | ⟨1, _⟩ => rfl
    | ⟨2, _⟩ => rfl
    | ⟨3, _⟩ => rfl
    | ⟨4, _⟩ => exact absurd rfl ha
  · rw [val_main_v7_apply, val_main_v2_apply]
    exact congrArg (val_main_v1 (F := Ideal) x0) (funext fun a => Fin.ext (by
      match a with
      | ⟨0, _⟩ => rfl
      | ⟨1, _⟩ => rfl
      | ⟨2, _⟩ => show τ.val = τ.val + 0; omega
      | ⟨3, _⟩ => rfl))

theorem frames_piece1 (x0 : (⟨S8x2x4096x481, .f32⟩ : BufTy).Contents (Elt Ideal))
    (b : Fin 8) (c : Fin 2) (τ : Fin 4096) (l : Fin 256) :
    val_main_v12 (F := Ideal) x0 (ix5 b c τ l (⟨1, by omega⟩ : Fin 5))
      = val_main_v1 (F := Ideal) x0 (ix4 b c (⟨τ.val + 1, by have := τ.isLt; omega⟩ : Fin 4100) l) := by
  unfold val_main_v12
  refine (concatenate_apply_piece _ _ _ (ix5 b c τ l (⟨1, by omega⟩ : Fin 5)) 1 (by show (1 : Nat) < 5; omega) S8x2x4096x256x1
    (val_main_v8 (F := Ideal) x0) rfl rfl 1 rfl (ix5 b c τ l (0 : Fin 1)) (fun a ha => ?_) rfl).trans ?_
  · match a with
    | ⟨0, _⟩ => rfl
    | ⟨1, _⟩ => rfl
    | ⟨2, _⟩ => rfl
    | ⟨3, _⟩ => rfl
    | ⟨4, _⟩ => exact absurd rfl ha
  · rw [val_main_v8_apply, val_main_v3_apply]
    exact congrArg (val_main_v1 (F := Ideal) x0) (funext fun a => Fin.ext (by
      match a with
      | ⟨0, _⟩ => rfl
      | ⟨1, _⟩ => rfl
      | ⟨2, _⟩ => show 1 + τ.val = τ.val + 1; omega
      | ⟨3, _⟩ => rfl))

theorem frames_piece2 (x0 : (⟨S8x2x4096x481, .f32⟩ : BufTy).Contents (Elt Ideal))
    (b : Fin 8) (c : Fin 2) (τ : Fin 4096) (l : Fin 256) :
    val_main_v12 (F := Ideal) x0 (ix5 b c τ l (⟨2, by omega⟩ : Fin 5))
      = val_main_v1 (F := Ideal) x0 (ix4 b c (⟨τ.val + 2, by have := τ.isLt; omega⟩ : Fin 4100) l) := by
  unfold val_main_v12
  refine (concatenate_apply_piece _ _ _ (ix5 b c τ l (⟨2, by omega⟩ : Fin 5)) 2 (by show (2 : Nat) < 5; omega) S8x2x4096x256x1
    (val_main_v9 (F := Ideal) x0) rfl rfl 2 rfl (ix5 b c τ l (0 : Fin 1)) (fun a ha => ?_) rfl).trans ?_
  · match a with
    | ⟨0, _⟩ => rfl
    | ⟨1, _⟩ => rfl
    | ⟨2, _⟩ => rfl
    | ⟨3, _⟩ => rfl
    | ⟨4, _⟩ => exact absurd rfl ha
  · rw [val_main_v9_apply, val_main_v4_apply]
    exact congrArg (val_main_v1 (F := Ideal) x0) (funext fun a => Fin.ext (by
      match a with
      | ⟨0, _⟩ => rfl
      | ⟨1, _⟩ => rfl
      | ⟨2, _⟩ => show 2 + τ.val = τ.val + 2; omega
      | ⟨3, _⟩ => rfl))

theorem frames_piece3 (x0 : (⟨S8x2x4096x481, .f32⟩ : BufTy).Contents (Elt Ideal))
    (b : Fin 8) (c : Fin 2) (τ : Fin 4096) (l : Fin 256) :
    val_main_v12 (F := Ideal) x0 (ix5 b c τ l (⟨3, by omega⟩ : Fin 5))
      = val_main_v1 (F := Ideal) x0 (ix4 b c (⟨τ.val + 3, by have := τ.isLt; omega⟩ : Fin 4100) l) := by
  unfold val_main_v12
  refine (concatenate_apply_piece _ _ _ (ix5 b c τ l (⟨3, by omega⟩ : Fin 5)) 3 (by show (3 : Nat) < 5; omega) S8x2x4096x256x1
    (val_main_v10 (F := Ideal) x0) rfl rfl 3 rfl (ix5 b c τ l (0 : Fin 1)) (fun a ha => ?_) rfl).trans ?_
  · match a with
    | ⟨0, _⟩ => rfl
    | ⟨1, _⟩ => rfl
    | ⟨2, _⟩ => rfl
    | ⟨3, _⟩ => rfl
    | ⟨4, _⟩ => exact absurd rfl ha
  · rw [val_main_v10_apply, val_main_v5_apply]
    exact congrArg (val_main_v1 (F := Ideal) x0) (funext fun a => Fin.ext (by
      match a with
      | ⟨0, _⟩ => rfl
      | ⟨1, _⟩ => rfl
      | ⟨2, _⟩ => show 3 + τ.val = τ.val + 3; omega
      | ⟨3, _⟩ => rfl))

theorem frames_piece4 (x0 : (⟨S8x2x4096x481, .f32⟩ : BufTy).Contents (Elt Ideal))
    (b : Fin 8) (c : Fin 2) (τ : Fin 4096) (l : Fin 256) :
    val_main_v12 (F := Ideal) x0 (ix5 b c τ l (⟨4, by omega⟩ : Fin 5))
      = val_main_v1 (F := Ideal) x0 (ix4 b c (⟨τ.val + 4, by have := τ.isLt; omega⟩ : Fin 4100) l) := by
  unfold val_main_v12
  refine (concatenate_apply_piece _ _ _ (ix5 b c τ l (⟨4, by omega⟩ : Fin 5)) 4 (by show (4 : Nat) < 5; omega) S8x2x4096x256x1
    (val_main_v11 (F := Ideal) x0) rfl rfl 4 rfl (ix5 b c τ l (0 : Fin 1)) (fun a ha => ?_) rfl).trans ?_
  · match a with
    | ⟨0, _⟩ => rfl
    | ⟨1, _⟩ => rfl
    | ⟨2, _⟩ => rfl
    | ⟨3, _⟩ => rfl
    | ⟨4, _⟩ => exact absurd rfl ha
  · rw [val_main_v11_apply, val_main_v6_apply]
    exact congrArg (val_main_v1 (F := Ideal) x0) (funext fun a => Fin.ext (by
      match a with
      | ⟨0, _⟩ => rfl
      | ⟨1, _⟩ => rfl
      | ⟨2, _⟩ => show 4 + τ.val = τ.val + 4; omega
      | ⟨3, _⟩ => rfl))

/-- The frame array at tap `k` is the padded band at row `τ + k`. -/
theorem frames_eq_padded (x0 : (⟨S8x2x4096x481, .f32⟩ : BufTy).Contents (Elt Ideal))
    (b : Fin 8) (c : Fin 2) (τ : Fin 4096) (l : Fin 256) (k : Fin 5) :
    val_main_v12 (F := Ideal) x0 (ix5 b c τ l k)
      = val_main_v1 (F := Ideal) x0
          (ix4 b c (⟨τ.val + k.val, by have := τ.isLt; have := k.isLt; omega⟩ : Fin 4100) l) := by
  match k with
  | ⟨0, _⟩ => exact frames_piece0 x0 b c τ l
  | ⟨1, _⟩ => exact frames_piece1 x0 b c τ l
  | ⟨2, _⟩ => exact frames_piece2 x0 b c τ l
  | ⟨3, _⟩ => exact frames_piece3 x0 b c τ l
  | ⟨4, _⟩ => exact frames_piece4 x0 b c τ l

/-- The frame array is the specification's delayed sample. -/
theorem frames_eq_tap (x0 : (⟨S8x2x4096x481, .f32⟩ : BufTy).Contents (Elt Ideal))
    (b : Fin 8) (c : Fin 2) (τ : Fin 4096) (l : Fin 256) (k : Fin 5) :
    val_main_v12 (F := Ideal) x0 (ix5 b c τ l k) = tap x0 b c τ l k := by
  rw [frames_eq_padded]
  unfold tap
  by_cases h : 4 ≤ τ.val + k.val
  · rw [dif_pos h]
    exact padded_of_le x0 b c (⟨τ.val + k.val, by have := τ.isLt; have := k.isLt; omega⟩ : Fin 4100) l h
  · rw [dif_neg h]
    exact padded_of_lt x0 b c (⟨τ.val + k.val, by have := τ.isLt; have := k.isLt; omega⟩ : Fin 4100) l
      (by show τ.val + k.val < 4; omega)

/-! ### The coefficients

The ten coefficient rows are regrouped as two parts of five taps and the tap axis is moved last, so part `c`, tap `k`
reads row `5·c + k`. -/

/-- The regrouped, transposed coefficient array at (batch, part, time, frequency, tap) is row `5·part + tap`. -/
theorem coefs_eq (x1 : (⟨S8x10x4096x256, .f32⟩ : BufTy).Contents (Elt Ideal))
    (b : Fin 8) (c : Fin 2) (τ : Fin 4096) (l : Fin 256) (k : Fin 5) :
    val_main_v14 (F := Ideal) x1 (ix5 b c τ l k)
      = x1 (ix4 b (⟨5 * c.val + k.val, by have := c.isLt; have := k.isLt; omega⟩ : Fin 10) τ l) := by
  rw [val_main_v14_apply, val_main_v13_apply]
  have hb := b.isLt; have hc := c.isLt; have hτ := τ.isLt; have hl := l.isLt; have hk := k.isLt
  exact congrArg x1 (funext fun a => Fin.ext (by
    match a with
    | ⟨0, _⟩ =>
      show ((((b.val * 2 + c.val) * 5 + k.val) * 4096 + τ.val) * 256 + l.val) / 10485760 = b.val; omega
    | ⟨1, _⟩ =>
      show ((((b.val * 2 + c.val) * 5 + k.val) * 4096 + τ.val) * 256 + l.val) / 1048576 % 10 = 5 * c.val + k.val
      omega
    | ⟨2, _⟩ =>
      show ((((b.val * 2 + c.val) * 5 + k.val) * 4096 + τ.val) * 256 + l.val) / 256 % 4096 = τ.val; omega
    | ⟨3, _⟩ =>
      show ((((b.val * 2 + c.val) * 5 + k.val) * 4096 + τ.val) * 256 + l.val) % 256 = l.val; omega))

/-! ### One part of a five-axis array, with the unit part axis dropped

Taking part 0 (or 1) of an array [batch, 2, time, frequency, tap] and reshaping away the unit axis reads the array at
(batch, 0 or 1, time, frequency, tap): the row-major position of (batch, time, frequency, tap) splits back into the same
coordinates. -/

/-- Part 0: the index the slice and the reshape compose to. -/
theorem idx_part0 (b : Fin 8) (τ : Fin 4096) (l : Fin 256) (k : Fin 5) :
    idx_main_v15 (idx_main_v16 (ix4 b τ l k)) = ix5 b (0 : Fin 2) τ l k := by
  have hb := b.isLt; have hτ := τ.isLt; have hl := l.isLt; have hk := k.isLt
  exact funext fun a => Fin.ext (by
    match a with
    | ⟨0, _⟩ => show (((b.val * 4096 + τ.val) * 256 + l.val) * 5 + k.val) / 5242880 = b.val; omega
    | ⟨1, _⟩ => rfl
    | ⟨2, _⟩ => show (((b.val * 4096 + τ.val) * 256 + l.val) * 5 + k.val) / 1280 % 4096 = τ.val; omega
    | ⟨3, _⟩ => show (((b.val * 4096 + τ.val) * 256 + l.val) * 5 + k.val) / 5 % 256 = l.val; omega
    | ⟨4, _⟩ => show (((b.val * 4096 + τ.val) * 256 + l.val) * 5 + k.val) % 5 = k.val; omega)

/-- Part 1: the index the slice and the reshape compose to. -/
theorem idx_part1 (b : Fin 8) (τ : Fin 4096) (l : Fin 256) (k : Fin 5) :
    idx_main_v17 (idx_main_v18 (ix4 b τ l k)) = ix5 b (1 : Fin 2) τ l k := by
  have hb := b.isLt; have hτ := τ.isLt; have hl := l.isLt; have hk := k.isLt
  exact funext fun a => Fin.ext (by
    match a with
    | ⟨0, _⟩ => show (((b.val * 4096 + τ.val) * 256 + l.val) * 5 + k.val) / 5242880 = b.val; omega
    | ⟨1, _⟩ => rfl
    | ⟨2, _⟩ => show (((b.val * 4096 + τ.val) * 256 + l.val) * 5 + k.val) / 1280 % 4096 = τ.val; omega
    | ⟨3, _⟩ => show (((b.val * 4096 + τ.val) * 256 + l.val) * 5 + k.val) / 5 % 256 = l.val; omega
    | ⟨4, _⟩ => show (((b.val * 4096 + τ.val) * 256 + l.val) * 5 + k.val) % 5 = k.val; omega)

/-- The real samples of the window. -/
theorem sampleRe_eq (x0 : (⟨S8x2x4096x481, .f32⟩ : BufTy).Contents (Elt Ideal))
    (b : Fin 8) (τ : Fin 4096) (l : Fin 256) (k : Fin 5) :
    val_main_v16 (F := Ideal) x0 (ix4 b τ l k) = tap x0 b 0 τ l k :=
  (val_main_v16_apply x0 _).trans ((val_main_v15_apply x0 _).trans
    ((congrArg (val_main_v12 (F := Ideal) x0) (idx_part0 b τ l k)).trans (frames_eq_tap x0 b 0 τ l k)))

/-- The imaginary samples of the window. -/
theorem sampleIm_eq (x0 : (⟨S8x2x4096x481, .f32⟩ : BufTy).Contents (Elt Ideal))
    (b : Fin 8) (τ : Fin 4096) (l : Fin 256) (k : Fin 5) :
    val_main_v18 (F := Ideal) x0 (ix4 b τ l k) = tap x0 b 1 τ l k :=
  (val_main_v18_apply x0 _).trans ((val_main_v17_apply x0 _).trans
    ((congrArg (val_main_v12 (F := Ideal) x0) (idx_part1 b τ l k)).trans (frames_eq_tap x0 b 1 τ l k)))

/-- The real coefficients: rows 0 … 4. -/
theorem coefRe_eq (x1 : (⟨S8x10x4096x256, .f32⟩ : BufTy).Contents (Elt Ideal))
    (b : Fin 8) (τ : Fin 4096) (l : Fin 256) (k : Fin 5) :
    val_main_v20 (F := Ideal) x1 (ix4 b τ l k) = coefRe x1 b τ l k := by
  refine (val_main_v20_apply x1 _).trans ((val_main_v19_apply x1 _).trans
    ((congrArg (val_main_v14 (F := Ideal) x1) (idx_part0 b τ l k)).trans ((coefs_eq x1 b 0 τ l k).trans ?_)))
  unfold coefRe
  exact congrArg x1 (funext fun a => Fin.ext (by
    match a with
    | ⟨0, _⟩ => rfl
    | ⟨1, _⟩ => show 5 * 0 + k.val = k.val; omega
    | ⟨2, _⟩ => rfl
    | ⟨3, _⟩ => rfl))

/-- The imaginary coefficients: rows 5 … 9. -/
theorem coefIm_eq (x1 : (⟨S8x10x4096x256, .f32⟩ : BufTy).Contents (Elt Ideal))
    (b : Fin 8) (τ : Fin 4096) (l : Fin 256) (k : Fin 5) :
    val_main_v22 (F := Ideal) x1 (ix4 b τ l k) = coefIm x1 b τ l k := by
  refine (val_main_v22_apply x1 _).trans ((val_main_v21_apply x1 _).trans
    ((congrArg (val_main_v14 (F := Ideal) x1) (idx_part1 b τ l k)).trans ((coefs_eq x1 b 1 τ l k).trans ?_)))
  unfold coefIm
  exact congrArg x1 (funext fun a => Fin.ext (by
    match a with
    | ⟨0, _⟩ => rfl
    | ⟨1, _⟩ => show 5 * 1 + k.val = 5 + k.val; omega
    | ⟨2, _⟩ => rfl
    | ⟨3, _⟩ => rfl))

/-! ### The two sums over the taps -/

/-- The summation index of the reduction is the tap coordinate. -/
theorem idx_sum (b : Fin 8) (τ : Fin 4096) (l : Fin 256) (k : Fin 5) :
    idx_main_v26 (ix3 b τ l) k = ix4 b τ l k :=
  funext fun a => Fin.ext (by
    match a with
    | ⟨0, _⟩ => rfl
    | ⟨1, _⟩ => rfl
    | ⟨2, _⟩ => rfl
    | ⟨3, _⟩ => rfl)

/-- The real part: the sum over the taps of (real sample · real coefficient − imaginary sample · imaginary
    coefficient), from the zero word. -/
theorem real_eq (x0 : (⟨S8x2x4096x481, .f32⟩ : BufTy).Contents (Elt Ideal))
    (x1 : (⟨S8x10x4096x256, .f32⟩ : BufTy).Contents (Elt Ideal)) (b : Fin 8) (τ : Fin 4096) (l : Fin 256) :
    val_main_v26 (F := Ideal) x0 x1 (ix3 b τ l) = re x0 x1 b τ l := by
  rw [val_main_v26_apply, val_main_cst_apply, Ideal.ofBits_def]
  unfold re
  refine congrArg (_ + ·) (Finset.sum_congr rfl fun k _ => ?_)
  rw [idx_sum, val_main_v25_apply, val_main_v23_apply, val_main_v24_apply, sampleRe_eq, sampleIm_eq, coefRe_eq,
    coefIm_eq]
  rfl

/-- The imaginary part: the sum over the taps of (imaginary sample · real coefficient + real sample · imaginary
    coefficient), from the zero word. -/
theorem imag_eq (x0 : (⟨S8x2x4096x481, .f32⟩ : BufTy).Contents (Elt Ideal))
    (x1 : (⟨S8x10x4096x256, .f32⟩ : BufTy).Contents (Elt Ideal)) (b : Fin 8) (τ : Fin 4096) (l : Fin 256) :
    val_main_v30 (F := Ideal) x0 x1 (ix3 b τ l) = im x0 x1 b τ l := by
  rw [val_main_v30_apply, val_main_cst_0_apply, Ideal.ofBits_def]
  unfold im
  refine congrArg (_ + ·) (Finset.sum_congr rfl fun k _ => ?_)
  rw [show idx_main_v30 (ix3 b τ l) k = ix4 b τ l k from idx_sum b τ l k, val_main_v29_apply, val_main_v27_apply,
    val_main_v28_apply, sampleRe_eq, sampleIm_eq, coefRe_eq, coefIm_eq]
  rfl

/-! ### The real and imaginary parts joined on the channel axis -/

/-- Channel 0 of the filtered band is the real part. -/
theorem band_chan0 (x0 : (⟨S8x2x4096x481, .f32⟩ : BufTy).Contents (Elt Ideal))
    (x1 : (⟨S8x10x4096x256, .f32⟩ : BufTy).Contents (Elt Ideal)) (b : Fin 8) (τ : Fin 4096) (l : Fin 256) :
    val_main_v33 (F := Ideal) x0 x1 (ix4 b (⟨0, by omega⟩ : Fin 2) τ l) = re x0 x1 b τ l := by
  unfold val_main_v33
  refine (concatenate_pair_apply_left _ (val_main_v31 (F := Ideal) x0 x1) (val_main_v32 (F := Ideal) x0 x1) _
    (ix4 b (⟨0, by omega⟩ : Fin 2) τ l) rfl (ix4 b (0 : Fin 1) τ l) (fun a => ?_)).trans ?_
  · match a with
    | ⟨0, _⟩ => rfl
    | ⟨1, _⟩ => rfl
    | ⟨2, _⟩ => rfl
    | ⟨3, _⟩ => rfl
  · refine (val_main_v31_apply x0 x1 _).trans ((congrArg (val_main_v26 (F := Ideal) x0 x1) ?_).trans (real_eq x0 x1 b τ l))
    exact funext fun a => Fin.ext (by
      match a with
      | ⟨0, _⟩ => rfl
      | ⟨1, _⟩ => rfl
      | ⟨2, _⟩ => rfl)

/-- Channel 1 of the filtered band is the imaginary part. -/
theorem band_chan1 (x0 : (⟨S8x2x4096x481, .f32⟩ : BufTy).Contents (Elt Ideal))
    (x1 : (⟨S8x10x4096x256, .f32⟩ : BufTy).Contents (Elt Ideal)) (b : Fin 8) (τ : Fin 4096) (l : Fin 256) :
    val_main_v33 (F := Ideal) x0 x1 (ix4 b (⟨1, by omega⟩ : Fin 2) τ l) = im x0 x1 b τ l := by
  unfold val_main_v33
  refine (concatenate_pair_apply_right _ (val_main_v31 (F := Ideal) x0 x1) (val_main_v32 (F := Ideal) x0 x1) _
    (ix4 b (⟨1, by omega⟩ : Fin 2) τ l) rfl rfl (ix4 b (0 : Fin 1) τ l) (fun a ha => ?_) rfl).trans ?_
  · match a with
    | ⟨0, _⟩ => rfl
    | ⟨1, _⟩ => exact absurd rfl ha
    | ⟨2, _⟩ => rfl
    | ⟨3, _⟩ => rfl
  · refine (val_main_v32_apply x0 x1 _).trans ((congrArg (val_main_v30 (F := Ideal) x0 x1) ?_).trans (imag_eq x0 x1 b τ l))
    exact funext fun a => Fin.ext (by
      match a with
      | ⟨0, _⟩ => rfl
      | ⟨1, _⟩ => rfl
      | ⟨2, _⟩ => rfl)

/-! ### The filtered band joined with the untouched frequencies -/

/-- Below frequency 256 the result is the filtered band. -/
theorem result_of_lt (x0 : (⟨S8x2x4096x481, .f32⟩ : BufTy).Contents (Elt Ideal))
    (x1 : (⟨S8x10x4096x256, .f32⟩ : BufTy).Contents (Elt Ideal)) (b : Fin 8) (c : Fin 2) (τ : Fin 4096) (l : Fin 481)
    (h : l.val < 256) :
    val_main_v35 (F := Ideal) x0 x1 (ix4 b c τ l)
      = val_main_v33 (F := Ideal) x0 x1 (ix4 b c τ (⟨l.val, h⟩ : Fin 256)) := by
  unfold val_main_v35
  refine concatenate_pair_apply_left _ (val_main_v33 (F := Ideal) x0 x1) (val_main_v34 (F := Ideal) x0) _
    (ix4 b c τ l) rfl (ix4 b c τ (⟨l.val, h⟩ : Fin 256)) (fun a => ?_)
  match a with
  | ⟨0, _⟩ => rfl
  | ⟨1, _⟩ => rfl
  | ⟨2, _⟩ => rfl
  | ⟨3, _⟩ => rfl

/-- From frequency 256 on the result is the input. -/
theorem result_of_le (x0 : (⟨S8x2x4096x481, .f32⟩ : BufTy).Contents (Elt Ideal))
    (x1 : (⟨S8x10x4096x256, .f32⟩ : BufTy).Contents (Elt Ideal)) (b : Fin 8) (c : Fin 2) (τ : Fin 4096) (l : Fin 481)
    (h : 256 ≤ l.val) :
    val_main_v35 (F := Ideal) x0 x1 (ix4 b c τ l) = x0 (ix4 b c τ l) := by
  unfold val_main_v35
  refine (concatenate_pair_apply_right _ (val_main_v33 (F := Ideal) x0 x1) (val_main_v34 (F := Ideal) x0) _
    (ix4 b c τ l) rfl rfl (ix4 b c τ (⟨l.val - 256, by have := l.isLt; omega⟩ : Fin 225)) (fun a ha => ?_)
    (by show l.val - 256 + 256 = l.val; omega)).trans ?_
  · match a with
    | ⟨0, _⟩ => rfl
    | ⟨1, _⟩ => rfl
    | ⟨2, _⟩ => rfl
    | ⟨3, _⟩ => exact absurd rfl ha
  · rw [val_main_v34_apply]
    exact congrArg x0 (funext fun a => Fin.ext (by
      match a with
      | ⟨0, _⟩ => rfl
      | ⟨1, _⟩ => rfl
      | ⟨2, _⟩ => rfl
      | ⟨3, _⟩ => show 256 + (l.val - 256) = l.val; omega))

/-- **The reference computes the causal five-tap complex filter.** -/
theorem reference_eq
    (x0 : (⟨Cert.ReferenceIdeal.S8x2x4096x481, .f32⟩ : BufTy).Contents (Elt Ideal))
    (x1 : (⟨Cert.ReferenceIdeal.S8x10x4096x256, .f32⟩ : BufTy).Contents (Elt Ideal)) :
    Cert.ReferenceIdeal.ReadP.val_main_v35 (F := Ideal) x0 x1 = Cert.FirSpec.filtered x0 x1 := by
  funext i
  obtain ⟨b, c, τ, l, rfl⟩ : ∃ (b : Fin 8) (c : Fin 2) (τ : Fin 4096) (l : Fin 481), i = ix4 b c τ l :=
    ⟨i 0, i 1, i 2, i 3, eq_ix4 i⟩
  unfold filtered
  show _ = (if h : l.val < 256 then
      (if c.val = 0 then re x0 x1 b τ (⟨l.val, h⟩ : Fin 256) else im x0 x1 b τ (⟨l.val, h⟩ : Fin 256))
    else x0 (ix4 b c τ l))
  by_cases h : l.val < 256
  · rw [dif_pos h, result_of_lt x0 x1 b c τ l h]
    match c with
    | ⟨0, _⟩ => rw [if_pos rfl]; exact band_chan0 x0 x1 b τ _
    | ⟨1, _⟩ => rw [if_neg (by show ¬((1 : Nat) = 0); omega)]; exact band_chan1 x0 x1 b τ _
  · rw [dif_neg h]
    exact result_of_le x0 x1 b c τ l (by omega)

end Cert.RefIsFir

end
-- ==== Proof.LibUnitPair.lean ====
/-
  Two leading unit axes dropped or added by a shape cast, read at an index.

  A pipelined block of a rank-4 array whose two leading axes are squeezed has shape [1, 1, a, b]; a kernel body views
  it as the matrix [a, b] and stores a matrix result back as [1, 1, a, b]. Both casts keep the row-major position, so
  the matrix entry (i, j) is the block entry (0, 0, i, j).
-/
import Idealize.ShloMosaic.Lib.Pipeline.Value
import Idealize.ShloMosaic.Lib.ValueIdx

namespace Cert.LibUnitPair

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

end Cert.LibUnitPair
-- ==== Proof.FirRows.lean ====
/-
  One time tile of the filter, read row by row.

  At a grid point the body holds a spectrogram block `x0` [1, 2, 1024, 481] (one batch, both channels, 1024 time
  rows), a coefficient block `x1` [1, 10, 1024, 256] and the carried history `xs` [2, 4, 256]: the last four time
  rows of the previous tile, per channel. For each channel it forms the 1028-row buffer [history ; tile] and reads
  it five times, shifted by k = 0 … 4 rows: a rotation by 1028 − k followed by the first 1024 rows is rows
  k … k + 1023, because row + k never passes the end of the buffer. This module reads those layout operations at an
  index: a load through a block rectangle adds the rectangle's offsets, a cast that drops the two unit axes keeps the
  (row, lane) coordinates, the joined buffer picks the history for rows below 4 and the tile four rows up otherwise.
-/
import proofs.«116127_j40218073759990_2_alg».proof.Proof.Gen.KernelIdeal.Skeleton
import proofs.«116127_j40218073759990_2_alg».proof.Proof.LibUnitPair
import Idealize.ShloMosaic.Lib.Pipeline.Value
import Idealize.ShloMosaic.Lib.Pipeline.FrameBody
import Idealize.ShloMosaic.Lib.ValueIdx
import Idealize.ShloMosaic.Lib.KernelVsHost

noncomputable section

namespace Cert.KernelIdeal.FirRows

open Cert.KernelIdeal Cert.KernelIdeal.Gen Idealize.ShloMosaic Idealize.ShloMosaic.ValueIdx

/-- Row `s` of one channel's 1028-row buffer: the four carried rows, then the tile's 1024 rows. -/
def bufRow (x0 : Vec Ideal S1x2x1024x481 .f32) (xs : Vec Ideal S2x4x256 .f32) (c : Fin 2) (s : Fin 1028) (l : Fin 256) : EReal :=
  if h : s.val < 4 then xs (ix3 c (⟨s.val, h⟩ : Fin 4) l)
  else x0 (ix4 (0 : Fin 1) c (⟨s.val - 4, by have := s.isLt; omega⟩ : Fin 1024) (⟨l.val, by have := l.isLt; omega⟩ : Fin 481))

/-- A [1, 1, 1024, 256] load viewed as a matrix keeps (row, lane). -/
theorem cast_row (v : Vec Ideal S1x1x1024x256 .f32) (r : Fin 1024) (l : Fin 256) :
    shapeCast S1024x256 v shapeCasts_S1x1x1024x256_S1024x256 (ix2 r l) = v (ix4 (0 : Fin 1) (0 : Fin 1) r l) :=
  Cert.LibUnitPair.shapeCast_11ab_ab_apply (a := 1024) (b := 256) v shapeCasts_S1x1x1024x256_S1024x256 r l

/-- The same for the 225 pass-through lanes. -/
theorem cast_row225 (v : Vec Ideal S1x1x1024x225 .f32) (r : Fin 1024) (l : Fin 225) :
    shapeCast S1024x225 v shapeCasts_S1x1x1024x225_S1024x225 (ix2 r l) = v (ix4 (0 : Fin 1) (0 : Fin 1) r l) :=
  Cert.LibUnitPair.shapeCast_11ab_ab_apply (a := 1024) (b := 225) v shapeCasts_S1x1x1024x225_S1024x225 r l

/-- A [1, 4, 256] history load viewed as a matrix keeps (row, lane). -/
theorem cast_hist (v : Vec Ideal S1x4x256 .f32) (s : Fin 4) (l : Fin 256) :
    shapeCast S4x256 v shapeCasts_S1x4x256_S4x256 (ix2 s l) = v (ix3 (0 : Fin 1) s l) :=
  shapeCast_apply v shapeCasts_S1x4x256_S4x256 (ix2 s l) (ix3 (0 : Fin 1) s l) (by
    rw [Shape.rowMajor_val_three, Shape.rowMajor_val_two]
    show (0 * 4 + s.val) * 256 + l.val = s.val * 256 + l.val
    omega)

/-- A load of channel `c`'s 256 filtered lanes out of the spectrogram block reads it at (0, c, row, lane). -/
theorem ld_tile (x0 : Vec Ideal S1x2x1024x481 .f32) (off : Fin 4 → Nat) (c : Fin 2) (hoff : off = ![0, c.val, 0, 0])
    (inb : ∀ a, off a + S1x1x1024x256.size a ≤ S1x2x1024x481.size a) (r : Fin 1024) (l : Fin 256) :
    View.ld (Val := Elt Ideal) (e' := .f32) x0 (Rect.unit (s := S1x2x1024x481) off S1x1x1024x256.size inb) (ix4 (0 : Fin 1) (0 : Fin 1) r l)
      = x0 (ix4 (0 : Fin 1) c r (⟨l.val, by have := l.isLt; omega⟩ : Fin 481)) := by
  subst hoff
  refine congrArg x0 (funext fun a => Fin.ext ?_)
  match a with
  | ⟨0, _⟩ => rfl
  | ⟨1, _⟩ => show c.val + 1 * 0 = c.val; omega
  | ⟨2, _⟩ => show 0 + 1 * r.val = r.val; omega
  | ⟨3, _⟩ => show 0 + 1 * l.val = l.val; omega

/-- A load of channel `c`'s 225 pass-through lanes reads the block at lane 256 + lane. -/
theorem ld_pass (x0 : Vec Ideal S1x2x1024x481 .f32) (off : Fin 4 → Nat) (c : Fin 2) (hoff : off = ![0, c.val, 0, 256])
    (inb : ∀ a, off a + S1x1x1024x225.size a ≤ S1x2x1024x481.size a) (r : Fin 1024) (l : Fin 225) :
    View.ld (Val := Elt Ideal) (e' := .f32) x0 (Rect.unit (s := S1x2x1024x481) off S1x1x1024x225.size inb) (ix4 (0 : Fin 1) (0 : Fin 1) r l)
      = x0 (ix4 (0 : Fin 1) c r (⟨256 + l.val, by have := l.isLt; omega⟩ : Fin 481)) := by
  subst hoff
  refine congrArg x0 (funext fun a => Fin.ext ?_)
  match a with
  | ⟨0, _⟩ => rfl
  | ⟨1, _⟩ => show c.val + 1 * 0 = c.val; omega
  | ⟨2, _⟩ => show 0 + 1 * r.val = r.val; omega
  | ⟨3, _⟩ => show 256 + 1 * l.val = 256 + l.val; omega

/-- A load of coefficient row `j` reads the coefficient block at (0, j, row, lane). -/
theorem ld_coef (x1 : Vec Ideal S1x10x1024x256 .f32) (off : Fin 4 → Nat) (j : Fin 10) (hoff : off = ![0, j.val, 0, 0])
    (inb : ∀ a, off a + S1x1x1024x256.size a ≤ S1x10x1024x256.size a) (r : Fin 1024) (l : Fin 256) :
    View.ld (Val := Elt Ideal) (e' := .f32) x1 (Rect.unit (s := S1x10x1024x256) off S1x1x1024x256.size inb) (ix4 (0 : Fin 1) (0 : Fin 1) r l)
      = x1 (ix4 (0 : Fin 1) j r l) := by
  subst hoff
  refine congrArg x1 (funext fun a => Fin.ext ?_)
  match a with
  | ⟨0, _⟩ => rfl
  | ⟨1, _⟩ => show j.val + 1 * 0 = j.val; omega
  | ⟨2, _⟩ => show 0 + 1 * r.val = r.val; omega
  | ⟨3, _⟩ => show 0 + 1 * l.val = l.val; omega

/-- A load of channel `c`'s four carried rows reads the history at (c, row, lane). -/
theorem ld_hist (xs : Vec Ideal S2x4x256 .f32) (off : Fin 3 → Nat) (c : Fin 2) (hoff : off = ![c.val, 0, 0])
    (inb : ∀ a, off a + S1x4x256.size a ≤ S2x4x256.size a) (s : Fin 4) (l : Fin 256) :
    View.ld (Val := Elt Ideal) (e' := .f32) xs (Rect.unit (s := S2x4x256) off S1x4x256.size inb) (ix3 (0 : Fin 1) s l) = xs (ix3 c s l) := by
  subst hoff
  refine congrArg xs (funext fun a => Fin.ext ?_)
  match a with
  | ⟨0, _⟩ => show c.val + 1 * 0 = c.val; omega
  | ⟨1, _⟩ => show 0 + 1 * s.val = s.val; omega
  | ⟨2, _⟩ => show 0 + 1 * l.val = l.val; omega

/-- The joined buffer [history ; tile] of channel `c`, read at a row: the history below row 4, the tile four rows up
    from there on. -/
theorem buf_apply (x0 : Vec Ideal S1x2x1024x481 .f32) (xs : Vec Ideal S2x4x256 .f32) (c : Fin 2)
    (offT : Fin 4 → Nat) (hT : offT = ![0, c.val, 0, 0]) (inbT : ∀ a, offT a + S1x1x1024x256.size a ≤ S1x2x1024x481.size a)
    (offH : Fin 3 → Nat) (hH : offH = ![c.val, 0, 0]) (inbH : ∀ a, offH a + S1x4x256.size a ≤ S2x4x256.size a)
    (s : Fin 1028) (l : Fin 256) :
    concatenate S1028x256 0
        [⟨S4x256, shapeCast S4x256 (View.ld (Val := Elt Ideal) (e' := .f32) xs (Rect.unit (s := S2x4x256) offH S1x4x256.size inbH)) shapeCasts_S1x4x256_S4x256⟩,
         ⟨S1024x256, shapeCast S1024x256 (View.ld (Val := Elt Ideal) (e' := .f32) x0 (Rect.unit (s := S1x2x1024x481) offT S1x1x1024x256.size inbT)) shapeCasts_S1x1x1024x256_S1024x256⟩]
        concatenates_S4x256_S1024x256_S1028x256_d0 (ix2 s l)
      = bufRow x0 xs c s l := by
  unfold bufRow
  by_cases h : s.val < 4
  · rw [dif_pos h]
    refine (concatenate_pair_apply_left (t := S1028x256) (s₁ := S4x256) (s₂ := S1024x256) (0 : Fin 2) _ _ concatenates_S4x256_S1024x256_S1028x256_d0 (ix2 s l) rfl
      (ix2 (⟨s.val, h⟩ : Fin 4) l) (fun b => match b with | ⟨0, _⟩ => rfl | ⟨1, _⟩ => rfl)).trans ?_
    rw [cast_hist]
    exact ld_hist xs offH c hH inbH _ l
  · rw [dif_neg h]
    refine (concatenate_pair_apply_right (t := S1028x256) (s₁ := S4x256) (s₂ := S1024x256) (0 : Fin 2) _ _ concatenates_S4x256_S1024x256_S1028x256_d0 (ix2 s l) rfl rfl
      (ix2 (⟨s.val - 4, by have := s.isLt; omega⟩ : Fin 1024) l)
      (fun b hb => match b, hb with | ⟨0, _⟩, hb => absurd rfl hb | ⟨1, _⟩, _ => rfl)
      (by show s.val - 4 + 4 = s.val; omega)).trans ?_
    rw [cast_row]
    exact ld_tile x0 offT c hT inbT _ l

/-- The first 1024 rows of the buffer as it stands: rows 0 … 1023. -/
theorem window0_apply (v : FVec Ideal S1028x256 .f32) (r : Fin 1024) (l : Fin 256) :
    extractStridedSlice S1024x256 ![0, 0] v slices_S1028x256_o0_0_S1024x256 (ix2 r l)
      = v (ix2 (⟨r.val + 0, by have := r.isLt; omega⟩ : Fin 1028) l) :=
  extractStridedSlice_apply ![0, 0] v slices_S1028x256_o0_0_S1024x256 (ix2 r l) _ (fun a => match a with
    | ⟨0, _⟩ => by show r.val + 0 = 0 + r.val; omega
    | ⟨1, _⟩ => by show l.val = 0 + l.val; omega)

/-- The first 1024 rows of the buffer rotated by 1028 − k are its rows k … k + 1023: row + k stays below 1028, so
    the rotation never wraps inside the window. -/
theorem windowK_apply (v : FVec Ideal S1028x256 .f32) (sh : BitVec 32) (k : Nat) (hk : k ≤ 4) (hsh : sh.toNat = 1028 - k)
    (r : Fin 1024) (l : Fin 256) :
    extractStridedSlice S1024x256 ![0, 0] (dynamicRotate (0 : Fin 2) sh none v rotates_S1028x256_d0)
        slices_S1028x256_o0_0_S1024x256 (ix2 r l)
      = v (ix2 (⟨r.val + k, by have := r.isLt; omega⟩ : Fin 1028) l) := by
  refine (extractStridedSlice_apply ![0, 0] _ slices_S1028x256_o0_0_S1024x256 (ix2 r l)
    (ix2 (⟨r.val, by have := r.isLt; omega⟩ : Fin 1028) l) (fun a => match a with
      | ⟨0, _⟩ => by show r.val = 0 + r.val; omega
      | ⟨1, _⟩ => by show l.val = 0 + l.val; omega)).trans ?_
  refine dynamicRotate_apply (0 : Fin 2) sh v rotates_S1028x256_d0 _ _ (fun b => match b with
    | ⟨0, _⟩ => by
        have hr := r.isLt
        show r.val + k = if ((0 : Fin 2) = 0) then (r.val + 1028 - sh.toNat % 1028) % 1028 else r.val
        rw [if_pos rfl, hsh]; omega
    | ⟨1, _⟩ => by
        show l.val = if ((1 : Fin 2) = 0) then (l.val + 256 - sh.toNat % 256) % 256 else l.val
        rw [if_neg (by decide)])

end Cert.KernelIdeal.FirRows

end
-- ==== Proof.FirBlock.lean ====
/-
  One time tile of the filter as one function of the spectrogram block, the coefficient block and the carried
  history.

  Row r of the tile's output, on a filtered lane l, is the complex sum over the taps k = 0 … 4 of row r + k of the
  1028-row buffer [history ; tile] times the tap's coefficients at row r. The body forms it by a running accumulator,
  ((((z + a₀) − b₀) + a₁) − b₁) …, which over the extended reals is z + Σₖ (aₖ − bₖ): the same ten terms regrouped
  (associativity and commutativity of addition only). The 225 other lanes are copied from the spectrogram block. The
  two channels are stored one after the other and together fill the output block; the last four rows of the tile's
  two channels are stored into the history and fill it, whatever it held.
-/
import proofs.«116127_j40218073759990_2_alg».proof.Proof.FirRows
import proofs.«116127_j40218073759990_2_alg».proof.Proof.FirSpec
import Idealize.ShloMosaic.PureOps.Ideal.Laws

set_option maxRecDepth 16384

noncomputable section

open scoped BigOperators

namespace Cert.KernelIdeal.FirBlock

open Cert.KernelIdeal Cert.KernelIdeal.Gen Cert.KernelIdeal.FirRows Cert.FirSpec Idealize.ShloMosaic Idealize.ShloMosaic.ValueIdx

section
variable (x0 : Vec Ideal S1x2x1024x481 .f32) (x1 : Vec Ideal S1x10x1024x256 .f32) (xs : Vec Ideal S2x4x256 .f32)

/-! ## The block's value -/

/-- Sample k of the window at row r: row r + k of channel c's buffer [history ; tile]. -/
def wRow (c : Fin 2) (r : Fin 1024) (l : Fin 256) (k : Fin 5) : EReal :=
  bufRow x0 xs c (⟨r.val + k.val, by have := r.isLt; have := k.isLt; omega⟩ : Fin 1028) l

/-- Tap k's real and imaginary coefficients at row r: rows k and 5 + k of the coefficient block. -/
def cRe (r : Fin 1024) (l : Fin 256) (k : Fin 5) : EReal :=
  x1 (ix4 (0 : Fin 1) (⟨k.val, by have := k.isLt; omega⟩ : Fin 10) r l)
def cIm (r : Fin 1024) (l : Fin 256) (k : Fin 5) : EReal :=
  x1 (ix4 (0 : Fin 1) (⟨5 + k.val, by have := k.isLt; omega⟩ : Fin 10) r l)

/-- The real and the imaginary part of the filtered sample at row r, lane l. -/
def blockRe (r : Fin 1024) (l : Fin 256) : EReal :=
  Ideal.ofBits .f32 0x00000000#32 + ∑ k : Fin 5, (wRow x0 xs 0 r l k * cRe x1 r l k - wRow x0 xs 1 r l k * cIm x1 r l k)
def blockIm (r : Fin 1024) (l : Fin 256) : EReal :=
  Ideal.ofBits .f32 0x00000000#32 + ∑ k : Fin 5, (wRow x0 xs 1 r l k * cRe x1 r l k + wRow x0 xs 0 r l k * cIm x1 r l k)

/-- The output block at (channel, row, lane): filtered below lane 256, the spectrogram block itself from there on. -/
def blockAt (ch : Fin 2) (r : Fin 1024) (l : Fin 481) : EReal :=
  if h : l.val < 256 then (if ch.val = 0 then blockRe x0 x1 xs r ⟨l.val, h⟩ else blockIm x0 x1 xs r ⟨l.val, h⟩)
  else x0 (ix4 (0 : Fin 1) ch r l)

/-- The output block as an array. -/
def blockOut : Vec Ideal S1x2x1024x481 .f32 := fun y => blockAt x0 x1 xs (y 1) (y 2) (y 3)

/-- What the tile leaves in the history: its last four rows, per channel. -/
def lastRows : Vec Ideal S2x4x256 .f32 := fun y =>
  x0 (ix4 (0 : Fin 1) (y 0) (⟨1020 + (y 1).val, by have h : (y 1).val < 4 := (y 1).isLt; omega⟩ : Fin 1024)
    (⟨(y 2).val, by have h : (y 2).val < 256 := (y 2).isLt; omega⟩ : Fin 481))

/-! ## The body's loads -/

abbrev T0 : Vec Ideal S1x1x1024x256 .f32 := View.ld (Val := Elt Ideal) (e' := .f32) x0 (Rect.unit (s := S1x2x1024x481) ![0, 0, 0, 0] S1x1x1024x256.size inb_S1x2x1024x481_S1x1x1024x256_0_0_0_0)
abbrev T1 : Vec Ideal S1x1x1024x256 .f32 := View.ld (Val := Elt Ideal) (e' := .f32) x0 (Rect.unit (s := S1x2x1024x481) ![0, 1, 0, 0] S1x1x1024x256.size inb_S1x2x1024x481_S1x1x1024x256_0_1_0_0)
abbrev P0 : Vec Ideal S1x1x1024x225 .f32 := View.ld (Val := Elt Ideal) (e' := .f32) x0 (Rect.unit (s := S1x2x1024x481) ![0, 0, 0, 256] S1x1x1024x225.size inb_S1x2x1024x481_S1x1x1024x225_0_0_0_256)
abbrev P1 : Vec Ideal S1x1x1024x225 .f32 := View.ld (Val := Elt Ideal) (e' := .f32) x0 (Rect.unit (s := S1x2x1024x481) ![0, 1, 0, 256] S1x1x1024x225.size inb_S1x2x1024x481_S1x1x1024x225_0_1_0_256)
abbrev H0 : Vec Ideal S1x4x256 .f32 := View.ld (Val := Elt Ideal) (e' := .f32) xs (Rect.unit (s := S2x4x256) ![0, 0, 0] S1x4x256.size inb_S2x4x256_S1x4x256_0_0_0)
abbrev H1 : Vec Ideal S1x4x256 .f32 := View.ld (Val := Elt Ideal) (e' := .f32) xs (Rect.unit (s := S2x4x256) ![1, 0, 0] S1x4x256.size inb_S2x4x256_S1x4x256_1_0_0)
abbrev C0 : Vec Ideal S1x1x1024x256 .f32 := View.ld (Val := Elt Ideal) (e' := .f32) x1 (Rect.unit (s := S1x10x1024x256) ![0, 0, 0, 0] S1x1x1024x256.size inb_S1x10x1024x256_S1x1x1024x256_0_0_0_0)
abbrev C1 : Vec Ideal S1x1x1024x256 .f32 := View.ld (Val := Elt Ideal) (e' := .f32) x1 (Rect.unit (s := S1x10x1024x256) ![0, 1, 0, 0] S1x1x1024x256.size inb_S1x10x1024x256_S1x1x1024x256_0_1_0_0)
abbrev C2 : Vec Ideal S1x1x1024x256 .f32 := View.ld (Val := Elt Ideal) (e' := .f32) x1 (Rect.unit (s := S1x10x1024x256) ![0, 2, 0, 0] S1x1x1024x256.size inb_S1x10x1024x256_S1x1x1024x256_0_2_0_0)
abbrev C3 : Vec Ideal S1x1x1024x256 .f32 := View.ld (Val := Elt Ideal) (e' := .f32) x1 (Rect.unit (s := S1x10x1024x256) ![0, 3, 0, 0] S1x1x1024x256.size inb_S1x10x1024x256_S1x1x1024x256_0_3_0_0)
abbrev C4 : Vec Ideal S1x1x1024x256 .f32 := View.ld (Val := Elt Ideal) (e' := .f32) x1 (Rect.unit (s := S1x10x1024x256) ![0, 4, 0, 0] S1x1x1024x256.size inb_S1x10x1024x256_S1x1x1024x256_0_4_0_0)
abbrev C5 : Vec Ideal S1x1x1024x256 .f32 := View.ld (Val := Elt Ideal) (e' := .f32) x1 (Rect.unit (s := S1x10x1024x256) ![0, 5, 0, 0] S1x1x1024x256.size inb_S1x10x1024x256_S1x1x1024x256_0_5_0_0)
abbrev C6 : Vec Ideal S1x1x1024x256 .f32 := View.ld (Val := Elt Ideal) (e' := .f32) x1 (Rect.unit (s := S1x10x1024x256) ![0, 6, 0, 0] S1x1x1024x256.size inb_S1x10x1024x256_S1x1x1024x256_0_6_0_0)
abbrev C7 : Vec Ideal S1x1x1024x256 .f32 := View.ld (Val := Elt Ideal) (e' := .f32) x1 (Rect.unit (s := S1x10x1024x256) ![0, 7, 0, 0] S1x1x1024x256.size inb_S1x10x1024x256_S1x1x1024x256_0_7_0_0)
abbrev C8 : Vec Ideal S1x1x1024x256 .f32 := View.ld (Val := Elt Ideal) (e' := .f32) x1 (Rect.unit (s := S1x10x1024x256) ![0, 8, 0, 0] S1x1x1024x256.size inb_S1x10x1024x256_S1x1x1024x256_0_8_0_0)
abbrev C9 : Vec Ideal S1x1x1024x256 .f32 := View.ld (Val := Elt Ideal) (e' := .f32) x1 (Rect.unit (s := S1x10x1024x256) ![0, 9, 0, 0] S1x1x1024x256.size inb_S1x10x1024x256_S1x1x1024x256_0_9_0_0)

/-! ## The leaves: buffers, window rows, coefficient rows -/

theorem buf0 (s : Fin 1028) (l : Fin 256) : k0_pay8 (F := Ideal) (T0 x0) (H0 xs) (ix2 s l) = bufRow x0 xs 0 s l :=
  buf_apply x0 xs 0 _ rfl _ _ rfl _ s l
theorem buf1 (s : Fin 1028) (l : Fin 256) : k0_pay9 (F := Ideal) (T1 x0) (H1 xs) (ix2 s l) = bufRow x0 xs 1 s l :=
  buf_apply x0 xs 1 _ rfl _ _ rfl _ s l

theorem w00 (r : Fin 1024) (l : Fin 256) : k0_pay10 (F := Ideal) (T0 x0) (H0 xs) (ix2 r l) = wRow x0 xs 0 r l 0 :=
  (window0_apply _ r l).trans (buf0 x0 xs _ l)
theorem w10 (r : Fin 1024) (l : Fin 256) : k0_pay11 (F := Ideal) (T1 x0) (H1 xs) (ix2 r l) = wRow x0 xs 1 r l 0 :=
  (window0_apply _ r l).trans (buf1 x0 xs _ l)
theorem w01 (r : Fin 1024) (l : Fin 256) : k0_pay17 (F := Ideal) (k0_pay16 (T0 x0) (H0 xs)) (ix2 r l) = wRow x0 xs 0 r l 1 :=
  (windowK_apply _ 1027#32 1 (by decide) (by decide) r l).trans (buf0 x0 xs _ l)
theorem w11 (r : Fin 1024) (l : Fin 256) : k0_pay18 (F := Ideal) (k0_pay9 (T1 x0) (H1 xs)) (ix2 r l) = wRow x0 xs 1 r l 1 :=
  (windowK_apply _ 1027#32 1 (by decide) (by decide) r l).trans (buf1 x0 xs _ l)
theorem w02 (r : Fin 1024) (l : Fin 256) : k0_pay21 (F := Ideal) (k0_pay8 (T0 x0) (H0 xs)) (ix2 r l) = wRow x0 xs 0 r l 2 :=
  (windowK_apply _ 1026#32 2 (by decide) (by decide) r l).trans (buf0 x0 xs _ l)
theorem w12 (r : Fin 1024) (l : Fin 256) : k0_pay22 (F := Ideal) (k0_pay9 (T1 x0) (H1 xs)) (ix2 r l) = wRow x0 xs 1 r l 2 :=
  (windowK_apply _ 1026#32 2 (by decide) (by decide) r l).trans (buf1 x0 xs _ l)
theorem w03 (r : Fin 1024) (l : Fin 256) : k0_pay27 (F := Ideal) (k0_pay8 (T0 x0) (H0 xs)) (ix2 r l) = wRow x0 xs 0 r l 3 :=
  (windowK_apply _ 1025#32 3 (by decide) (by decide) r l).trans (buf0 x0 xs _ l)
theorem w13 (r : Fin 1024) (l : Fin 256) : k0_pay28 (F := Ideal) (k0_pay9 (T1 x0) (H1 xs)) (ix2 r l) = wRow x0 xs 1 r l 3 :=
  (windowK_apply _ 1025#32 3 (by decide) (by decide) r l).trans (buf1 x0 xs _ l)
theorem w04 (r : Fin 1024) (l : Fin 256) : k0_pay31 (F := Ideal) (k0_pay8 (T0 x0) (H0 xs)) (ix2 r l) = wRow x0 xs 0 r l 4 :=
  (windowK_apply _ 1024#32 4 (by decide) (by decide) r l).trans (buf0 x0 xs _ l)
theorem w14 (r : Fin 1024) (l : Fin 256) : k0_pay32 (F := Ideal) (k0_pay9 (T1 x0) (H1 xs)) (ix2 r l) = wRow x0 xs 1 r l 4 :=
  (windowK_apply _ 1024#32 4 (by decide) (by decide) r l).trans (buf1 x0 xs _ l)

theorem coef0 (r : Fin 1024) (l : Fin 256) : k0_pay12 (F := Ideal) (C0 x1) (ix2 r l) = cRe x1 r l 0 :=
  (cast_row _ r l).trans (ld_coef x1 _ (⟨0, by decide⟩ : Fin 10) rfl _ r l)
theorem coef1 (r : Fin 1024) (l : Fin 256) : k0_pay19 (F := Ideal) (C1 x1) (ix2 r l) = cRe x1 r l 1 :=
  (cast_row _ r l).trans (ld_coef x1 _ (⟨1, by decide⟩ : Fin 10) rfl _ r l)
theorem coef2 (r : Fin 1024) (l : Fin 256) : k0_pay23 (F := Ideal) (C2 x1) (ix2 r l) = cRe x1 r l 2 :=
  (cast_row _ r l).trans (ld_coef x1 _ (⟨2, by decide⟩ : Fin 10) rfl _ r l)
theorem coef3 (r : Fin 1024) (l : Fin 256) : k0_pay29 (F := Ideal) (C3 x1) (ix2 r l) = cRe x1 r l 3 :=
  (cast_row _ r l).trans (ld_coef x1 _ (⟨3, by decide⟩ : Fin 10) rfl _ r l)
theorem coef4 (r : Fin 1024) (l : Fin 256) : k0_pay33 (F := Ideal) (C4 x1) (ix2 r l) = cRe x1 r l 4 :=
  (cast_row _ r l).trans (ld_coef x1 _ (⟨4, by decide⟩ : Fin 10) rfl _ r l)
theorem coef5 (r : Fin 1024) (l : Fin 256) : k0_pay13 (F := Ideal) (C5 x1) (ix2 r l) = cIm x1 r l 0 :=
  (cast_row _ r l).trans (ld_coef x1 _ (⟨5, by decide⟩ : Fin 10) rfl _ r l)
theorem coef6 (r : Fin 1024) (l : Fin 256) : k0_pay20 (F := Ideal) (C6 x1) (ix2 r l) = cIm x1 r l 1 :=
  (cast_row _ r l).trans (ld_coef x1 _ (⟨6, by decide⟩ : Fin 10) rfl _ r l)
theorem coef7 (r : Fin 1024) (l : Fin 256) : k0_pay24 (F := Ideal) (C7 x1) (ix2 r l) = cIm x1 r l 2 :=
  (cast_row _ r l).trans (ld_coef x1 _ (⟨7, by decide⟩ : Fin 10) rfl _ r l)
theorem coef8 (r : Fin 1024) (l : Fin 256) : k0_pay30 (F := Ideal) (C8 x1) (ix2 r l) = cIm x1 r l 3 :=
  (cast_row _ r l).trans (ld_coef x1 _ (⟨8, by decide⟩ : Fin 10) rfl _ r l)
theorem coef9 (r : Fin 1024) (l : Fin 256) : k0_pay34 (F := Ideal) (C9 x1) (ix2 r l) = cIm x1 r l 4 :=
  (cast_row _ r l).trans (ld_coef x1 _ (⟨9, by decide⟩ : Fin 10) rfl _ r l)

/-! ## The two accumulators are the sums -/

/-- The real accumulator at a filtered lane. -/
theorem re_apply (r : Fin 1024) (l : Fin 256) :
    (subf (addf (subf (addf (k0_pay25 (k0_pay8 (T0 x0) (H0 xs)) (k0_pay9 (T1 x0) (H1 xs)) (k0_pay14 (T0 x0) (T1 x0) (H0 xs) (H1 xs) (C0 x1) (C5 x1)) (k0_pay16 (T0 x0) (H0 xs)) (C1 x1) (C6 x1) (C2 x1) (C7 x1)) (mulf (k0_pay27 (k0_pay8 (T0 x0) (H0 xs))) (k0_pay29 (C3 x1)))) (mulf (k0_pay28 (k0_pay9 (T1 x0) (H1 xs))) (k0_pay30 (C8 x1))))
        (mulf (k0_pay31 (k0_pay8 (T0 x0) (H0 xs))) (k0_pay33 (C4 x1)))) (mulf (k0_pay32 (k0_pay9 (T1 x0) (H1 xs))) (k0_pay34 (C9 x1))) : FVec Ideal S1024x256 .f32) (ix2 r l)
      = blockRe x0 x1 xs r l := by
  unfold k0_pay25 k0_pay14 blockRe
  simp only [mulf_apply, addf_apply, subf_apply, broadcast_apply, w00 x0 xs, w10 x0 xs, w01 x0 xs, w11 x0 xs, w02 x0 xs, w12 x0 xs, w03 x0 xs, w13 x0 xs, w04 x0 xs, w14 x0 xs, coef0 x1, coef1 x1, coef2 x1, coef3 x1, coef4 x1, coef5 x1, coef6 x1, coef7 x1, coef8 x1, coef9 x1]
  exact chain_sub_eq_sum _ (fun k => wRow x0 xs 0 r l k * cRe x1 r l k) (fun k => wRow x0 xs 1 r l k * cIm x1 r l k)

/-- The imaginary accumulator at a filtered lane. -/
theorem im_apply (r : Fin 1024) (l : Fin 256) :
    (k0_pay35 (k0_pay8 (T0 x0) (H0 xs)) (k0_pay9 (T1 x0) (H1 xs)) (k0_pay26 (k0_pay8 (T0 x0) (H0 xs)) (k0_pay9 (T1 x0) (H1 xs)) (k0_pay15 (T0 x0) (T1 x0) (H0 xs) (H1 xs) (C0 x1) (C5 x1)) (k0_pay16 (T0 x0) (H0 xs)) (C1 x1) (C6 x1) (C2 x1) (C7 x1)) (k0_pay27 (k0_pay8 (T0 x0) (H0 xs))) (k0_pay28 (k0_pay9 (T1 x0) (H1 xs))) (C3 x1) (C8 x1) (C4 x1) (C9 x1)) (ix2 r l) = blockIm x0 x1 xs r l := by
  unfold k0_pay35 k0_pay26 k0_pay15 blockIm
  simp only [mulf_apply, addf_apply, subf_apply, broadcast_apply, w00 x0 xs, w10 x0 xs, w01 x0 xs, w11 x0 xs, w02 x0 xs, w12 x0 xs, w03 x0 xs, w13 x0 xs, w04 x0 xs, w14 x0 xs, coef0 x1, coef1 x1, coef2 x1, coef3 x1, coef4 x1, coef5 x1, coef6 x1, coef7 x1, coef8 x1, coef9 x1]
  exact chain_add_eq_sum _ (fun k => wRow x0 xs 1 r l k * cRe x1 r l k) (fun k => wRow x0 xs 0 r l k * cIm x1 r l k)

/-! ## The two stored channels at an index -/

/-- The first store: channel 0 of the output block, [filtered real part | pass-through lanes]. -/
theorem chan0_apply (u v : Fin 1) (r : Fin 1024) (l : Fin 481) :
    k0_pay1 (F := Ideal) (k0_pay37 (k0_pay8 (T0 x0) (H0 xs)) (k0_pay9 (T1 x0) (H1 xs)) (k0_pay25 (k0_pay8 (T0 x0) (H0 xs)) (k0_pay9 (T1 x0) (H1 xs)) (k0_pay14 (T0 x0) (T1 x0) (H0 xs) (H1 xs) (C0 x1) (C5 x1)) (k0_pay16 (T0 x0) (H0 xs)) (C1 x1) (C6 x1) (C2 x1) (C7 x1)) (k0_pay27 (k0_pay8 (T0 x0) (H0 xs))) (k0_pay28 (k0_pay9 (T1 x0) (H1 xs))) (C3 x1) (C8 x1) (C4 x1) (C9 x1) (P0 x0)) (ix4 u v r l) = blockAt x0 x1 xs 0 r l := by
  unfold k0_pay1
  refine (Cert.LibUnitPair.shapeCast_ab_11ab_apply (a := 1024) (b := 481) _ shapeCasts_S1024x481_S1x1x1024x481 u v r l).trans ?_
  unfold k0_pay37 blockAt
  by_cases hl : l.val < 256
  · rw [dif_pos hl, if_pos (show (0 : Fin 2).val = 0 from rfl)]
    refine (concatenate_pair_apply_left (t := S1024x481) (s₁ := S1024x256) (s₂ := S1024x225) (1 : Fin 2) _ _
      concatenates_S1024x256_S1024x225_S1024x481_d1 (ix2 r l) rfl (ix2 r (⟨l.val, hl⟩ : Fin 256))
      (fun b => match b with | ⟨0, _⟩ => rfl | ⟨1, _⟩ => rfl)).trans ?_
    exact re_apply x0 x1 xs r ⟨l.val, hl⟩
  · rw [dif_neg hl]
    refine (concatenate_pair_apply_right (t := S1024x481) (s₁ := S1024x256) (s₂ := S1024x225) (1 : Fin 2) _ _
      concatenates_S1024x256_S1024x225_S1024x481_d1 (ix2 r l) rfl rfl
      (ix2 r (⟨l.val - 256, by have := l.isLt; omega⟩ : Fin 225))
      (fun b hb => match b, hb with | ⟨0, _⟩, _ => rfl | ⟨1, _⟩, hb => absurd rfl hb)
      (by show l.val - 256 + 256 = l.val; omega)).trans ?_
    refine (cast_row225 _ r _).trans ((ld_pass x0 _ 0 rfl _ r _).trans ?_)
    exact congrArg x0 (funext fun a => Fin.ext (by
      match a with
      | ⟨0, _⟩ => rfl
      | ⟨1, _⟩ => rfl
      | ⟨2, _⟩ => rfl
      | ⟨3, _⟩ => show 256 + (l.val - 256) = l.val; omega))

/-- The second store: channel 1, [filtered imaginary part | pass-through lanes]. -/
theorem chan1_apply (u v : Fin 1) (r : Fin 1024) (l : Fin 481) :
    k0_pay2 (F := Ideal) (k0_pay35 (k0_pay8 (T0 x0) (H0 xs)) (k0_pay9 (T1 x0) (H1 xs)) (k0_pay26 (k0_pay8 (T0 x0) (H0 xs)) (k0_pay9 (T1 x0) (H1 xs)) (k0_pay15 (T0 x0) (T1 x0) (H0 xs) (H1 xs) (C0 x1) (C5 x1)) (k0_pay16 (T0 x0) (H0 xs)) (C1 x1) (C6 x1) (C2 x1) (C7 x1)) (k0_pay27 (k0_pay8 (T0 x0) (H0 xs))) (k0_pay28 (k0_pay9 (T1 x0) (H1 xs))) (C3 x1) (C8 x1) (C4 x1) (C9 x1)) (k0_pay36 (P1 x0)) (ix4 u v r l) = blockAt x0 x1 xs 1 r l := by
  unfold k0_pay2
  refine (Cert.LibUnitPair.shapeCast_ab_11ab_apply (a := 1024) (b := 481) _ shapeCasts_S1024x481_S1x1x1024x481 u v r l).trans ?_
  unfold blockAt
  by_cases hl : l.val < 256
  · rw [dif_pos hl, if_neg (show ¬(1 : Fin 2).val = 0 by decide)]
    refine (concatenate_pair_apply_left (t := S1024x481) (s₁ := S1024x256) (s₂ := S1024x225) (1 : Fin 2) _ _
      concatenates_S1024x256_S1024x225_S1024x481_d1 (ix2 r l) rfl (ix2 r (⟨l.val, hl⟩ : Fin 256))
      (fun b => match b with | ⟨0, _⟩ => rfl | ⟨1, _⟩ => rfl)).trans ?_
    exact im_apply x0 x1 xs r ⟨l.val, hl⟩
  · rw [dif_neg hl]
    refine (concatenate_pair_apply_right (t := S1024x481) (s₁ := S1024x256) (s₂ := S1024x225) (1 : Fin 2) _ _
      concatenates_S1024x256_S1024x225_S1024x481_d1 (ix2 r l) rfl rfl
      (ix2 r (⟨l.val - 256, by have := l.isLt; omega⟩ : Fin 225))
      (fun b hb => match b, hb with | ⟨0, _⟩, _ => rfl | ⟨1, _⟩, hb => absurd rfl hb)
      (by show l.val - 256 + 256 = l.val; omega)).trans ?_
    unfold k0_pay36
    refine (cast_row225 _ r _).trans ((ld_pass x0 _ 1 rfl _ r _).trans ?_)
    exact congrArg x0 (funext fun a => Fin.ext (by
      match a with
      | ⟨0, _⟩ => rfl
      | ⟨1, _⟩ => rfl
      | ⟨2, _⟩ => rfl
      | ⟨3, _⟩ => show 256 + (l.val - 256) = l.val; omega))

/-! ## The output block: two stores, one per channel, fill it -/

/-- The block index under entry (u, v, r, l) of the store of channel ch. -/
theorem emb_chan (off : Fin 4 → Nat) (ch : Fin 2) (hoff : off = ![0, ch.val, 0, 0])
    (inb : ∀ a, off a + (![1, 1, 1024, 481] : Fin 4 → Nat) a ≤ S1x2x1024x481.size a) (u v : Fin 1) (r : Fin 1024) (l : Fin 481) :
    (Rect.unit (s := S1x2x1024x481) off ![1, 1, 1024, 481] inb).emb (ix4 u v r l) = ix4 (0 : Fin 1) ch r l := by
  subst hoff
  refine funext fun a => Fin.ext ?_
  have hu := u.isLt
  have hv := v.isLt
  match a with
  | ⟨0, _⟩ => show 0 + 1 * u.val = 0; omega
  | ⟨1, _⟩ => show ch.val + 1 * v.val = ch.val; omega
  | ⟨2, _⟩ => show 0 + 1 * r.val = r.val; omega
  | ⟨3, _⟩ => show 0 + 1 * l.val = l.val; omega

/-- The two stores' canonical contents are the block's value: each store's payload is the block's value under it,
    and every block index lies under the store of its channel. -/
theorem canon_out :
    View.canon (Val := Elt Ideal) (s := S1x2x1024x481) (e := .f32)
      [⟨Rect.unit (s := S1x2x1024x481) ![0, 1, 0, 0] ![1, 1, 1024, 481] inb_S1x2x1024x481_S1x1x1024x481_0_1_0_0,
          k0_pay2 (F := Ideal) (k0_pay35 (k0_pay8 (T0 x0) (H0 xs)) (k0_pay9 (T1 x0) (H1 xs)) (k0_pay26 (k0_pay8 (T0 x0) (H0 xs)) (k0_pay9 (T1 x0) (H1 xs)) (k0_pay15 (T0 x0) (T1 x0) (H0 xs) (H1 xs) (C0 x1) (C5 x1)) (k0_pay16 (T0 x0) (H0 xs)) (C1 x1) (C6 x1) (C2 x1) (C7 x1)) (k0_pay27 (k0_pay8 (T0 x0) (H0 xs))) (k0_pay28 (k0_pay9 (T1 x0) (H1 xs))) (C3 x1) (C8 x1) (C4 x1) (C9 x1)) (k0_pay36 (P1 x0))⟩,
       ⟨Rect.unit (s := S1x2x1024x481) ![0, 0, 0, 0] ![1, 1, 1024, 481] inb_S1x2x1024x481_S1x1x1024x481_0_0_0_0,
          k0_pay1 (F := Ideal) (k0_pay37 (k0_pay8 (T0 x0) (H0 xs)) (k0_pay9 (T1 x0) (H1 xs)) (k0_pay25 (k0_pay8 (T0 x0) (H0 xs)) (k0_pay9 (T1 x0) (H1 xs)) (k0_pay14 (T0 x0) (T1 x0) (H0 xs) (H1 xs) (C0 x1) (C5 x1)) (k0_pay16 (T0 x0) (H0 xs)) (C1 x1) (C6 x1) (C2 x1) (C7 x1)) (k0_pay27 (k0_pay8 (T0 x0) (H0 xs))) (k0_pay28 (k0_pay9 (T1 x0) (H1 xs))) (C3 x1) (C8 x1) (C4 x1) (C9 x1) (P0 x0))⟩]
      = blockOut x0 x1 xs := by
  funext y
  refine View.canon_apply_of_pieces (blockOut x0 x1 xs) _ ?_ y ?_
  · intro p hp x
    rcases List.mem_cons.mp hp with rfl | hp
    · obtain ⟨u, v, r, l, rfl⟩ : ∃ (u v : Fin 1) (r : Fin 1024) (l : Fin 481), x = ix4 u v r l :=
        ⟨x 0, x 1, x 2, x 3, eq_ix4 x⟩
      refine (chan1_apply x0 x1 xs u v r l).trans ?_
      exact (congrArg (blockOut x0 x1 xs) (emb_chan ![0, 1, 0, 0] 1 rfl inb_S1x2x1024x481_S1x1x1024x481_0_1_0_0 u v r l)).symm
    · obtain rfl := List.mem_singleton.mp hp
      obtain ⟨u, v, r, l, rfl⟩ : ∃ (u v : Fin 1) (r : Fin 1024) (l : Fin 481), x = ix4 u v r l :=
        ⟨x 0, x 1, x 2, x 3, eq_ix4 x⟩
      refine (chan0_apply x0 x1 xs u v r l).trans ?_
      exact (congrArg (blockOut x0 x1 xs) (emb_chan ![0, 0, 0, 0] 0 rfl inb_S1x2x1024x481_S1x1x1024x481_0_0_0_0 u v r l)).symm
  · obtain ⟨u, ch, r, l, rfl⟩ : ∃ (u : Fin 1) (ch : Fin 2) (r : Fin 1024) (l : Fin 481), y = ix4 u ch r l :=
      ⟨y 0, y 1, y 2, y 3, eq_ix4 y⟩
    have hu := u.isLt
    have hr := r.isLt
    have hl := l.isLt
    have hch := ch.isLt
    by_cases h1 : ch.val = 1
    · refine ⟨_, List.mem_cons_self, ?_⟩
      rw [Rect.mem_set_unit]
      intro a
      match a with
      | ⟨0, _⟩ => show 0 ≤ u.val ∧ u.val < 0 + 1; omega
      | ⟨1, _⟩ => show 1 ≤ ch.val ∧ ch.val < 1 + 1; omega
      | ⟨2, _⟩ => show 0 ≤ r.val ∧ r.val < 0 + 1024; omega
      | ⟨3, _⟩ => show 0 ≤ l.val ∧ l.val < 0 + 481; omega
    · refine ⟨_, List.mem_cons_of_mem _ List.mem_cons_self, ?_⟩
      rw [Rect.mem_set_unit]
      intro a
      match a with
      | ⟨0, _⟩ => show 0 ≤ u.val ∧ u.val < 0 + 1; omega
      | ⟨1, _⟩ => show 0 ≤ ch.val ∧ ch.val < 0 + 1; omega
      | ⟨2, _⟩ => show 0 ≤ r.val ∧ r.val < 0 + 1024; omega
      | ⟨3, _⟩ => show 0 ≤ l.val ∧ l.val < 0 + 481; omega

/-! ## The history: the last four rows of each channel fill it -/

/-- A store of the last four rows of a channel's tile, read at an index. -/
theorem tail_apply (v : FVec Ideal S1024x256 .f32) (u : Fin 1) (s : Fin 4) (l : Fin 256) :
    shapeCast S1x4x256 (extractStridedSlice S4x256 ![1020, 0] v slices_S1024x256_o1020_0_S4x256) shapeCasts_S4x256_S1x4x256 (ix3 u s l)
      = v (ix2 (⟨1020 + s.val, by have := s.isLt; omega⟩ : Fin 1024) l) := by
  have hu := u.isLt
  refine (shapeCast_apply _ shapeCasts_S4x256_S1x4x256 (ix3 u s l) (ix2 s l) (by
    rw [Shape.rowMajor_val_two, Shape.rowMajor_val_three]
    show s.val * 256 + l.val = (u.val * 4 + s.val) * 256 + l.val
    have : u.val = 0 := by omega
    rw [this]; omega)).trans ?_
  exact extractStridedSlice_apply ![1020, 0] v slices_S1024x256_o1020_0_S4x256 (ix2 s l) _ (fun a => match a with
    | ⟨0, _⟩ => by show 1020 + s.val = 1020 + s.val; rfl
    | ⟨1, _⟩ => by show l.val = 0 + l.val; omega)

/-- Two stores of [1, 4, 256] rows, the later one at channel 1 and the earlier at channel 0, fill the [2, 4, 256]
    history whatever was stored before them: an index of channel 1 lies under the later store, an index of channel 0
    lies under the earlier one and not under the later. -/
theorem canon_two_rows (w1 w0 : Vec Ideal S1x4x256 .f32) (L : List (View.Piece (Elt Ideal) S2x4x256 .f32)) (G : Vec Ideal S2x4x256 .f32)
    (h1 : ∀ (s : Fin 4) (l : Fin 256), w1 (ix3 (0 : Fin 1) s l) = G (ix3 (1 : Fin 2) s l))
    (h0 : ∀ (s : Fin 4) (l : Fin 256), w0 (ix3 (0 : Fin 1) s l) = G (ix3 (0 : Fin 2) s l)) :
    View.canon (Val := Elt Ideal) (s := S2x4x256) (e := .f32)
      ((⟨(Rect.unit (s := S2x4x256) ![1, 0, 0] ![1, 4, 256] inb_S2x4x256_S1x4x256_1_0_0), w1⟩ : View.Piece (Elt Ideal) S2x4x256 .f32) :: (⟨(Rect.unit (s := S2x4x256) ![0, 0, 0] ![1, 4, 256] inb_S2x4x256_S1x4x256_0_0_0), w0⟩ : View.Piece (Elt Ideal) S2x4x256 .f32) :: L) = G := by
  funext y
  obtain ⟨c, s, l, rfl⟩ : ∃ (c : Fin 2) (s : Fin 4) (l : Fin 256), y = ix3 c s l := ⟨y 0, y 1, y 2, eq_ix3 y⟩
  have hc := c.isLt
  by_cases hc1 : c.val = 1
  · obtain rfl : c = 1 := Fin.ext hc1
    have e : ix3 (1 : Fin 2) s l = (Rect.unit (s := S2x4x256) ![1, 0, 0] ![1, 4, 256] inb_S2x4x256_S1x4x256_1_0_0).emb (ix3 (0 : Fin 1) s l) :=
      funext fun a => Fin.ext (by
        match a with
        | ⟨0, _⟩ => rfl
        | ⟨1, _⟩ => show s.val = 0 + 1 * s.val; omega
        | ⟨2, _⟩ => show l.val = 0 + 1 * l.val; omega)
    exact (congrArg (View.canon (Val := Elt Ideal) ((⟨(Rect.unit (s := S2x4x256) ![1, 0, 0] ![1, 4, 256] inb_S2x4x256_S1x4x256_1_0_0), w1⟩ : View.Piece (Elt Ideal) S2x4x256 .f32) :: (⟨(Rect.unit (s := S2x4x256) ![0, 0, 0] ![1, 4, 256] inb_S2x4x256_S1x4x256_0_0_0), w0⟩ : View.Piece (Elt Ideal) S2x4x256 .f32) :: L)) e).trans
      ((View.canon_cons_emb (Rect.unit (s := S2x4x256) ![1, 0, 0] ![1, 4, 256] inb_S2x4x256_S1x4x256_1_0_0) w1 ((⟨(Rect.unit (s := S2x4x256) ![0, 0, 0] ![1, 4, 256] inb_S2x4x256_S1x4x256_0_0_0), w0⟩ : View.Piece (Elt Ideal) S2x4x256 .f32) :: L) (ix3 (0 : Fin 1) s l)).trans (h1 s l))
  · obtain rfl : c = 0 := Fin.ext (by omega)
    have hnot : ix3 (0 : Fin 2) s l ∉ (Rect.unit (s := S2x4x256) ![1, 0, 0] ![1, 4, 256] inb_S2x4x256_S1x4x256_1_0_0).set := by
      rw [Rect.mem_set_unit]
      intro h
      have h' : (1 : Nat) ≤ 0 := (h (0 : Fin 3)).1
      omega
    have e : ix3 (0 : Fin 2) s l = (Rect.unit (s := S2x4x256) ![0, 0, 0] ![1, 4, 256] inb_S2x4x256_S1x4x256_0_0_0).emb (ix3 (0 : Fin 1) s l) :=
      funext fun a => Fin.ext (by
        match a with
        | ⟨0, _⟩ => rfl
        | ⟨1, _⟩ => show s.val = 0 + 1 * s.val; omega
        | ⟨2, _⟩ => show l.val = 0 + 1 * l.val; omega)
    exact (View.canon_cons_of_not_mem (⟨(Rect.unit (s := S2x4x256) ![1, 0, 0] ![1, 4, 256] inb_S2x4x256_S1x4x256_1_0_0), w1⟩ : View.Piece (Elt Ideal) S2x4x256 .f32) ((⟨(Rect.unit (s := S2x4x256) ![0, 0, 0] ![1, 4, 256] inb_S2x4x256_S1x4x256_0_0_0), w0⟩ : View.Piece (Elt Ideal) S2x4x256 .f32) :: L) hnot).trans
      ((congrArg (View.canon (Val := Elt Ideal) ((⟨(Rect.unit (s := S2x4x256) ![0, 0, 0] ![1, 4, 256] inb_S2x4x256_S1x4x256_0_0_0), w0⟩ : View.Piece (Elt Ideal) S2x4x256 .f32) :: L)) e).trans
        ((View.canon_cons_emb (Rect.unit (s := S2x4x256) ![0, 0, 0] ![1, 4, 256] inb_S2x4x256_S1x4x256_0_0_0) w0 L (ix3 (0 : Fin 1) s l)).trans (h0 s l)))

/-- The stored last rows of channel c's tile, read at an index: the spectrogram block at row 1020 + s. -/
theorem tailRow_apply (c : Fin 2) (off : Fin 4 → Nat) (hoff : off = ![0, c.val, 0, 0])
    (inb : ∀ a, off a + S1x1x1024x256.size a ≤ S1x2x1024x481.size a) (s : Fin 4) (l : Fin 256) :
    shapeCast S1x4x256 (extractStridedSlice S4x256 ![1020, 0]
        (shapeCast S1024x256 (View.ld (Val := Elt Ideal) (e' := .f32) x0 (Rect.unit (s := S1x2x1024x481) off S1x1x1024x256.size inb)) shapeCasts_S1x1x1024x256_S1024x256)
        slices_S1024x256_o1020_0_S4x256) shapeCasts_S4x256_S1x4x256 (ix3 (0 : Fin 1) s l)
      = lastRows x0 (ix3 c s l) :=
  (tail_apply _ 0 s l).trans ((cast_row _ _ l).trans (ld_tile x0 off c hoff inb _ l))

/-- Whatever was stored before, after the two last-rows stores the history holds the tile's last four rows. -/
theorem canon_hist (L : List (View.Piece (Elt Ideal) S2x4x256 .f32)) :
    View.canon (Val := Elt Ideal) (s := S2x4x256) (e := .f32)
      ((⟨(Rect.unit (s := S2x4x256) ![1, 0, 0] ![1, 4, 256] inb_S2x4x256_S1x4x256_1_0_0), k0_pay4 (F := Ideal) (k0_pay7 (T1 x0))⟩ : View.Piece (Elt Ideal) S2x4x256 .f32) :: (⟨(Rect.unit (s := S2x4x256) ![0, 0, 0] ![1, 4, 256] inb_S2x4x256_S1x4x256_0_0_0), k0_pay3 (F := Ideal) (k0_pay6 (T0 x0))⟩ : View.Piece (Elt Ideal) S2x4x256 .f32) :: L)
      = lastRows x0 :=
  canon_two_rows (k0_pay4 (F := Ideal) (k0_pay7 (T1 x0))) (k0_pay3 (F := Ideal) (k0_pay6 (T0 x0))) L (lastRows x0)
    (fun s l => tailRow_apply x0 1 _ rfl _ s l) (fun s l => tailRow_apply x0 0 _ rfl _ s l)

end

end Cert.KernelIdeal.FirBlock

end
-- ==== Proof.FirCases.lean ====
/-
  What one grid point leaves behind, in each of the body's two control cases.

  At the first time tile of a batch the body first fills the history with zeros; at every other tile the history holds
  what the tile before left. In both cases the body then computes the tile's output from [history ; tile] and ends by
  overwriting the whole history with the tile's last four rows. So the output block is the tile's value over a zero
  history in the first case and over the carried history in the second, and the history afterwards is the tile's last
  rows in both.
-/
import proofs.«116127_j40218073759990_2_alg».proof.Proof.Gen.KernelIdeal.Frame
import proofs.«116127_j40218073759990_2_alg».proof.Proof.FirBlock
import Idealize.ShloMosaic.Lib.Pipeline.Value
import Idealize.ShloMosaic.Lib.Tactic

set_option maxRecDepth 16384

noncomputable section

namespace Cert.KernelIdeal.FirCases

open Cert.KernelIdeal Cert.KernelIdeal.Gen Cert.KernelIdeal.FirRows Cert.KernelIdeal.FirBlock Idealize.ShloMosaic
  Idealize.ShloMosaic.ValueIdx Idealize.ShloMosaic.TcCoe Idealize.SL.Sem Idealize.ShloMosaic.Tactic

/-- The history at the first tile of a batch: the zero fill. -/
abbrev zeroHist : Vec Ideal S2x4x256 .f32 := k0_pay5 (F := Ideal)

/-- Every entry of the zero fill is the zero word, which denotes 0. -/
theorem zeroHist_apply (y : S2x4x256.Idx) : zeroHist y = 0 := by
  unfold zeroHist k0_pay5
  rw [shapeCast_self]
  exact Ideal.ofBits_zero_f32

theorem hz3 : (![0, 0, 0] : Fin 3 → Nat) = fun _ => 0 := funext fun a => by fin_cases a <;> rfl

/-- A later tile: the output block is the tile's value over the carried history. -/
theorem out_B (c : Dev nD) (i : grid0.Coords) (arg2 : Memref sig .tc .vmem S1x2x1024x481 .f32) (harg2 : arg2.IsWhole) (arg3 : Memref sig .tc .vmem S1x10x1024x256 .f32) (harg3 : arg3.IsWhole) (arg4 : Memref sig .tc .vmem S1x2x1024x481 .f32) (harg4 : arg4.IsWhole) (arg5 : Memref sig .tc .vmem S2x4x256 .f32) (harg5 : arg5.IsWhole) (hc0 : ¬cond0_0 i)
    (x0 : Vec Ideal S1x2x1024x481 .f32) (x1 : Vec Ideal S1x10x1024x256 .f32) (xs0 : Vec Ideal S2x4x256 .f32) :
    out0_B_2 (F := Ideal) c i arg2 harg2 arg3 harg3 arg4 harg4 arg5 harg5 hc0 x0 x1 xs0 = blockOut x0 x1 xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  simp only [View.readAt_eq_ld, harg2.read_unread, harg3.read_unread, harg5.read_unread]
  exact canon_out x0 x1 xs0

/-- A later tile: the history afterwards is the tile's last rows. -/
theorem sout_B (c : Dev nD) (i : grid0.Coords) (arg2 : Memref sig .tc .vmem S1x2x1024x481 .f32) (harg2 : arg2.IsWhole) (arg3 : Memref sig .tc .vmem S1x10x1024x256 .f32) (harg3 : arg3.IsWhole) (arg4 : Memref sig .tc .vmem S1x2x1024x481 .f32) (harg4 : arg4.IsWhole) (arg5 : Memref sig .tc .vmem S2x4x256 .f32) (harg5 : arg5.IsWhole) (hc0 : ¬cond0_0 i)
    (x0 : Vec Ideal S1x2x1024x481 .f32) (x1 : Vec Ideal S1x10x1024x256 .f32) (xs0 : Vec Ideal S2x4x256 .f32) :
    sout0_B_0 (F := Ideal) c i arg2 harg2 arg3 harg3 arg4 harg4 arg5 harg5 hc0 x0 x1 xs0 = lastRows x0 := by
  unfold sout0_B_0
  rw [View.read_writes_eq_canon _ _ _ (scover0_B_0 c i arg2 harg2 arg3 harg3 arg4 harg4 arg5 harg5 hc0 x0 x1 xs0)]
  unfold kernelRun0_B
  dsimp only
  sl_unfold_words
  simp only [View.readAt_eq_ld, harg2.read_unread]
  exact canon_hist x0 []

/-- The first tile of a batch: the history afterwards is the tile's last rows (the zero fill is overwritten). -/
theorem sout_A (c : Dev nD) (i : grid0.Coords) (arg2 : Memref sig .tc .vmem S1x2x1024x481 .f32) (harg2 : arg2.IsWhole) (arg3 : Memref sig .tc .vmem S1x10x1024x256 .f32) (harg3 : arg3.IsWhole) (arg4 : Memref sig .tc .vmem S1x2x1024x481 .f32) (harg4 : arg4.IsWhole) (arg5 : Memref sig .tc .vmem S2x4x256 .f32) (harg5 : arg5.IsWhole) (hc0 : cond0_0 i)
    (x0 : Vec Ideal S1x2x1024x481 .f32) (x1 : Vec Ideal S1x10x1024x256 .f32) :
    sout0_A_0 (F := Ideal) c i arg2 harg2 arg3 harg3 arg4 harg4 arg5 harg5 hc0 x0 x1 = lastRows x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  simp only [View.readAt_eq_ld, harg2.read_unread]
  exact canon_hist x0 _

set_option maxHeartbeats 1000000 in
/-- The first tile of a batch: the history loads read the zero fill, so the output block is the tile's value over a
    zero history. -/
theorem out_A (c : Dev nD) (i : grid0.Coords) (arg2 : Memref sig .tc .vmem S1x2x1024x481 .f32) (harg2 : arg2.IsWhole) (arg3 : Memref sig .tc .vmem S1x10x1024x256 .f32) (harg3 : arg3.IsWhole) (arg4 : Memref sig .tc .vmem S1x2x1024x481 .f32) (harg4 : arg4.IsWhole) (arg5 : Memref sig .tc .vmem S2x4x256 .f32) (harg5 : arg5.IsWhole) (hc0 : cond0_0 i)
    (x0 : Vec Ideal S1x2x1024x481 .f32) (x1 : Vec Ideal S1x10x1024x256 .f32) :
    out0_A_2 (F := Ideal) c i arg2 harg2 arg3 harg3 arg4 harg4 arg5 harg5 hc0 x0 x1 = blockOut x0 x1 zeroHist := by
  unfold out0_A_2
  rw [View.read_writes_eq_canon _ _ _ (cover0_A_2 c i arg2 harg2 arg3 harg3 arg4 harg4 arg5 harg5 hc0 x0 x1)]
  unfold kernelRun0_A
  dsimp only
  sl_unfold_words
  have hcov : ∀ y : S2x4x256.Idx, ∃ p ∈ [(⟨Rect.unit (s := S2x4x256) ![0, 0, 0] S2x4x256.size inb_S2x4x256_S2x4x256_0_0_0, k0_pay5 (F := Ideal)⟩ : View.Piece (Elt Ideal) S2x4x256 .f32)], y ∈ p.1.set :=
    fun y => ⟨_, List.mem_singleton_self _, View.mem_set_unit_zero hz3 inb_S2x4x256_S2x4x256_0_0_0 y⟩
  simp only [View.readAt_eq_ld, harg2.read_unread, harg3.read_unread]
  simp only [View.readCov_eq_canon_ld _ _ _ hcov]
  simp only [View.canon_unit_zero (S := S2x4x256) hz3]
  exact canon_out x0 x1 zeroHist

end Cert.KernelIdeal.FirCases

end
-- ==== Proof.FirTile.lean ====
/-
  One time tile of the filter is the whole-array filter restricted to the tile.

  At the grid point of batch b and time tile tt the body holds the spectrogram block (the array's batch b, times
  1024·tt … 1024·tt + 1023), the coefficient block (the same times) and the history: the four array rows just before
  the tile, or zeros in the first tile. Row r + k of the buffer [history ; tile] is then the array's time
  1024·tt + r + k − 4, and zero exactly where that time is negative — which happens only in the first tile, where the
  history is zero. That is the delayed sample the whole-array specification reads at time 1024·tt + r, so the tile's
  two sums are the array's, term by term, and the pass-through lanes are the array's own.
-/
import proofs.«116127_j40218073759990_2_alg».proof.Proof.FirBlock
import proofs.«116127_j40218073759990_2_alg».proof.Proof.FirSpec
import Idealize.ShloMosaic.Lib.ValueIdx
import Idealize.ShloMosaic.PureOps.Ideal.Laws

noncomputable section

open scoped BigOperators

namespace Cert.KernelIdeal.FirTile

open Cert.KernelIdeal Cert.KernelIdeal.Gen Cert.KernelIdeal.FirRows Cert.KernelIdeal.FirBlock Cert.FirSpec Idealize.ShloMosaic
  Idealize.ShloMosaic.ValueIdx

/-- The array read at two indices with the same coordinates. -/
theorem spec_congr (A : SpecShape.Idx → EReal) (b : Fin 8) (c : Fin 2) {i i' : Fin 4096} {j j' : Fin 481}
    (hi : i.val = i'.val) (hj : j.val = j'.val) : A (ix4 b c i j) = A (ix4 b c i' j') := by
  obtain rfl := Fin.ext hi
  obtain rfl := Fin.ext hj
  rfl

section
variable (A : SpecShape.Idx → EReal) (C : CoefShape.Idx → EReal) (b : Fin 8) (tt : Fin 4)
  (x0 : Vec Ideal S1x2x1024x481 .f32) (x1 : Vec Ideal S1x10x1024x256 .f32) (xs : Vec Ideal S2x4x256 .f32)
  (h0 : ∀ (ch : Fin 2) (r : Fin 1024) (l : Fin 481), x0 (ix4 (0 : Fin 1) ch r l)
    = A (ix4 b ch (⟨1024 * tt.val + r.val, by have := tt.isLt; have := r.isLt; omega⟩ : Fin 4096) l))
  (h1 : ∀ (j : Fin 10) (r : Fin 1024) (l : Fin 256), x1 (ix4 (0 : Fin 1) j r l)
    = C (ix4 b j (⟨1024 * tt.val + r.val, by have := tt.isLt; have := r.isLt; omega⟩ : Fin 4096) l))
  (hs : ∀ (ch : Fin 2) (s : Fin 4) (l : Fin 256), xs (ix3 ch s l)
    = if h : tt.val = 0 then 0
      else A (ix4 b ch (⟨1024 * tt.val + s.val - 4, by have := tt.isLt; have := s.isLt; omega⟩ : Fin 4096)
        (⟨l.val, by have := l.isLt; omega⟩ : Fin 481)))

include h0 hs in
/-- Sample `k` of the window at tile row `r` is the array's delayed sample at time `1024·tt + r`: rows `r + k < 4`
    of the buffer are the history — zero in the first tile, where the delayed time is negative, and the previous tile's
    last rows otherwise —, and the rows from 4 on are the tile's own, four rows up. -/
theorem wRow_eq_tap (c : Fin 2) (r : Fin 1024) (l : Fin 256) (k : Fin 5) :
    wRow x0 xs c r l k
      = tap A b c (⟨1024 * tt.val + r.val, by have := tt.isLt; have := r.isLt; omega⟩ : Fin 4096) l k := by
  have htt := tt.isLt
  have hr := r.isLt
  have hk := k.isLt
  unfold wRow bufRow tap
  by_cases hlt : r.val + k.val < 4
  · rw [dif_pos hlt, hs]
    by_cases hz : tt.val = 0
    · rw [dif_pos hz, dif_neg (by show ¬(4 ≤ 1024 * tt.val + r.val + k.val); omega)]
    · rw [dif_neg hz, dif_pos (by show 4 ≤ 1024 * tt.val + r.val + k.val; omega)]
      exact spec_congr A b c (by show 1024 * tt.val + (r.val + k.val) - 4 = 1024 * tt.val + r.val + k.val - 4; omega) rfl
  · rw [dif_neg hlt, h0, dif_pos (by show 4 ≤ 1024 * tt.val + r.val + k.val; omega)]
    exact spec_congr A b c (by show 1024 * tt.val + (r.val + k.val - 4) = 1024 * tt.val + r.val + k.val - 4; omega) rfl

include h1 in
/-- The tile's real coefficients are the array's at time `1024·tt + r`. -/
theorem cRe_eq_coefRe (r : Fin 1024) (l : Fin 256) (k : Fin 5) :
    cRe x1 r l k
      = coefRe C b (⟨1024 * tt.val + r.val, by have := tt.isLt; have := r.isLt; omega⟩ : Fin 4096) l k := by
  unfold cRe coefRe
  exact h1 _ r l

include h1 in
/-- The tile's imaginary coefficients are the array's at time `1024·tt + r`. -/
theorem cIm_eq_coefIm (r : Fin 1024) (l : Fin 256) (k : Fin 5) :
    cIm x1 r l k
      = coefIm C b (⟨1024 * tt.val + r.val, by have := tt.isLt; have := r.isLt; omega⟩ : Fin 4096) l k := by
  unfold cIm coefIm
  exact h1 _ r l

include h0 h1 hs in
/-- The tile's real part is the array's. -/
theorem blockRe_eq_re (r : Fin 1024) (l : Fin 256) :
    blockRe x0 x1 xs r l
      = re A C b (⟨1024 * tt.val + r.val, by have := tt.isLt; have := r.isLt; omega⟩ : Fin 4096) l := by
  unfold blockRe re
  refine congrArg (_ + ·) (Finset.sum_congr rfl fun k _ => ?_)
  rw [wRow_eq_tap A b tt x0 xs h0 hs, wRow_eq_tap A b tt x0 xs h0 hs, cRe_eq_coefRe C b tt x1 h1,
    cIm_eq_coefIm C b tt x1 h1]

include h0 h1 hs in
/-- The tile's imaginary part is the array's. -/
theorem blockIm_eq_im (r : Fin 1024) (l : Fin 256) :
    blockIm x0 x1 xs r l
      = im A C b (⟨1024 * tt.val + r.val, by have := tt.isLt; have := r.isLt; omega⟩ : Fin 4096) l := by
  unfold blockIm im
  refine congrArg (_ + ·) (Finset.sum_congr rfl fun k _ => ?_)
  rw [wRow_eq_tap A b tt x0 xs h0 hs, wRow_eq_tap A b tt x0 xs h0 hs, cRe_eq_coefRe C b tt x1 h1,
    cIm_eq_coefIm C b tt x1 h1]

include h0 h1 hs in
/-- **One tile's value is the whole-array filter restricted to the tile.** -/
theorem blockAt_eq_filtered (ch : Fin 2) (r : Fin 1024) (l : Fin 481) :
    blockAt x0 x1 xs ch r l
      = filtered A C (ix4 b ch (⟨1024 * tt.val + r.val, by have := tt.isLt; have := r.isLt; omega⟩ : Fin 4096) l) := by
  unfold blockAt filtered
  show _ = (if h : l.val < 256 then
      (if ch.val = 0
        then re A C b (⟨1024 * tt.val + r.val, by have := tt.isLt; have := r.isLt; omega⟩ : Fin 4096) (⟨l.val, h⟩ : Fin 256)
        else im A C b (⟨1024 * tt.val + r.val, by have := tt.isLt; have := r.isLt; omega⟩ : Fin 4096) (⟨l.val, h⟩ : Fin 256))
    else A (ix4 b ch (⟨1024 * tt.val + r.val, by have := tt.isLt; have := r.isLt; omega⟩ : Fin 4096) l))
  by_cases h : l.val < 256
  · rw [dif_pos h, dif_pos h]
    by_cases hc : ch.val = 0
    · rw [if_pos hc, if_pos hc]
      exact blockRe_eq_re A C b tt x0 x1 xs h0 h1 hs r _
    · rw [if_neg hc, if_neg hc]
      exact blockIm_eq_im A C b tt x0 x1 xs h0 h1 hs r _
  · rw [dif_neg h, dif_neg h]
    exact h0 ch r l

end

end Cert.KernelIdeal.FirTile

end
-- ==== Proof.FirArray.lean ====
/-
  From the tiles to the array: the kernel's result is the whole-array filter.

  The grid has 8 × 4 points; point t works on batch t / 4 and time tile t % 4. Its spectrogram and coefficient
  blocks are the arrays' batch t / 4 at times 1024·(t % 4) … 1024·(t % 4) + 1023, and what it writes back is its output
  block. After any point the history holds that point's tile's last four rows, since both cases of the body store the
  whole history; so at a point that is not the first of its batch the history is the previous tile's last four rows —
  the array's four rows just before the tile —, and at the first point of a batch it is zero. With these three facts one
  tile's value is the whole-array filter restricted to the tile, so every point writes back its block of one and the
  same function of the two argument arrays; the 32 blocks tile the array, so the array ends holding that function.
-/
import proofs.«116127_j40218073759990_2_alg».proof.Proof.Gen.KernelIdeal.Value
import proofs.«116127_j40218073759990_2_alg».proof.Proof.FirCases
import proofs.«116127_j40218073759990_2_alg».proof.Proof.FirTile
import Idealize.ShloMosaic.Lib.Pipeline.Value
import Idealize.ShloMosaic.Lib.ValueIdx

noncomputable section

namespace Cert.KernelIdeal.FirArray

open Cert.KernelIdeal Cert.KernelIdeal.Gen Cert.KernelIdeal.FirBlock Cert.KernelIdeal.FirCases Cert.FirSpec Idealize.ShloMosaic
  Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One tile, at an array index -/

/-- The tile's output block at a block index `y` is the whole-array filter at the array index with batch `b`, `y`'s
    channel and lane, and time `1024·tt +` `y`'s row. -/
theorem tile_value (A : SpecShape.Idx → EReal) (C : CoefShape.Idx → EReal) (b : Fin 8) (tt : Fin 4)
    (x0 : Vec Ideal S1x2x1024x481 .f32) (x1 : Vec Ideal S1x10x1024x256 .f32) (xs : Vec Ideal S2x4x256 .f32)
    (h0 : ∀ (ch : Fin 2) (r : Fin 1024) (l : Fin 481), x0 (ix4 (0 : Fin 1) ch r l)
      = A (ix4 b ch (⟨1024 * tt.val + r.val, by have := tt.isLt; have := r.isLt; omega⟩ : Fin 4096) l))
    (h1 : ∀ (j : Fin 10) (r : Fin 1024) (l : Fin 256), x1 (ix4 (0 : Fin 1) j r l)
      = C (ix4 b j (⟨1024 * tt.val + r.val, by have := tt.isLt; have := r.isLt; omega⟩ : Fin 4096) l))
    (hs : ∀ (ch : Fin 2) (s : Fin 4) (l : Fin 256), xs (ix3 ch s l)
      = if h : tt.val = 0 then 0
        else A (ix4 b ch (⟨1024 * tt.val + s.val - 4, by have := tt.isLt; have := s.isLt; omega⟩ : Fin 4096)
          (⟨l.val, by have := l.isLt; omega⟩ : Fin 481)))
    (y : S1x2x1024x481.Idx) (i : SpecShape.Idx) (hi0 : (i 0).val = b.val) (hi1 : (i 1).val = (y 1).val)
    (hi2 : (i 2).val = 1024 * tt.val + (y 2).val) (hi3 : (i 3).val = (y 3).val) :
    blockOut x0 x1 xs y = filtered A C i := by
  unfold blockOut
  rw [FirTile.blockAt_eq_filtered A C b tt x0 x1 xs h0 h1 hs (y 1) (y 2) (y 3)]
  refine congrArg (filtered A C) (funext fun a => Fin.ext ?_)
  match a with
  | ⟨0, _⟩ => exact hi0.symm
  | ⟨1, _⟩ => exact hi1.symm
  | ⟨2, _⟩ => exact hi2.symm
  | ⟨3, _⟩ => exact hi3.symm

/-! ## The grid: point `t` is batch `t / 4`, time tile `t % 4` -/

/-- The three windows' block indices at every grid point, decided over the 32 points. -/
theorem idx_facts : ∀ t : Fin cfg0.N, (win0_0.index t (0 : Fin 4) = t.val / 4 ∧ win0_0.index t (1 : Fin 4) = 0 ∧ win0_0.index t (2 : Fin 4) = t.val % 4 ∧ win0_0.index t (3 : Fin 4) = 0)
    ∧ (win0_1.index t (0 : Fin 4) = t.val / 4 ∧ win0_1.index t (1 : Fin 4) = 0 ∧ win0_1.index t (2 : Fin 4) = t.val % 4 ∧ win0_1.index t (3 : Fin 4) = 0)
    ∧ (win0_2.index t (0 : Fin 4) = t.val / 4 ∧ win0_2.index t (1 : Fin 4) = 0 ∧ win0_2.index t (2 : Fin 4) = t.val % 4 ∧ win0_2.index t (3 : Fin 4) = 0) :=
  (by decide +kernel : ∀ t : Fin grid0.N, _)

/-- Window 0's block at point `t`, read at an index: the array at batch `t / 4`, the same row of its second axis, time
    `1024·(t % 4) +` the block's time, the same lane — a block's coordinate is the block index times the block's extent
    plus the coordinate inside the block. -/
theorem iblk0_apply (c : Dev nD) (t : Fin cfg0.N) (x : S1x2x1024x481.Idx) (k : S8x2x4096x481.Idx)
    (hk0 : (k 0).val = t.val / 4) (hk1 : (k 1).val = (x 1).val) (hk2 : (k 2).val = 1024 * (t.val % 4) + (x 2).val)
    (hk3 : (k 3).val = (x 3).val) :
    (iblk m c 0 t : Vec Ideal S1x2x1024x481 .f32) x = (V m c main_arg0 : S8x2x4096x481.Idx → EReal) k := by
  obtain ⟨e0, e1, e2, e3⟩ := (idx_facts t).1
  have hx0 : (x 0).val < 1 := (x 0).isLt
  unfold iblk
  rw [View.read_apply]
  show V m c main_arg0 _ = V m c main_arg0 _
  congr 1
  funext a
  apply Fin.ext
  match a with
  | ⟨0, _⟩ => show win0_0.index t (0 : Fin 4) * 1 + 1 * (x 0).val = (k 0).val; rw [e0, hk0]; omega
  | ⟨1, _⟩ => show win0_0.index t (1 : Fin 4) * 2 + 1 * (x 1).val = (k 1).val; rw [e1, hk1]; omega
  | ⟨2, _⟩ => show win0_0.index t (2 : Fin 4) * 1024 + 1 * (x 2).val = (k 2).val; rw [e2, hk2]; omega
  | ⟨3, _⟩ => show win0_0.index t (3 : Fin 4) * 481 + 1 * (x 3).val = (k 3).val; rw [e3, hk3]; omega

/-- Window 1's block at point `t`, read at an index: the array at batch `t / 4`, the same row of its second axis, time
    `1024·(t % 4) +` the block's time, the same lane — a block's coordinate is the block index times the block's extent
    plus the coordinate inside the block. -/
theorem iblk1_apply (c : Dev nD) (t : Fin cfg0.N) (x : S1x10x1024x256.Idx) (k : S8x10x4096x256.Idx)
    (hk0 : (k 0).val = t.val / 4) (hk1 : (k 1).val = (x 1).val) (hk2 : (k 2).val = 1024 * (t.val % 4) + (x 2).val)
    (hk3 : (k 3).val = (x 3).val) :
    (iblk m c 1 t : Vec Ideal S1x10x1024x256 .f32) x = (V m c main_arg1 : S8x10x4096x256.Idx → EReal) k := by
  obtain ⟨e0, e1, e2, e3⟩ := (idx_facts t).2.1
  have hx0 : (x 0).val < 1 := (x 0).isLt
  unfold iblk
  rw [View.read_apply]
  show V m c main_arg1 _ = V m c main_arg1 _
  congr 1
  funext a
  apply Fin.ext
  match a with
  | ⟨0, _⟩ => show win0_1.index t (0 : Fin 4) * 1 + 1 * (x 0).val = (k 0).val; rw [e0, hk0]; omega
  | ⟨1, _⟩ => show win0_1.index t (1 : Fin 4) * 10 + 1 * (x 1).val = (k 1).val; rw [e1, hk1]; omega
  | ⟨2, _⟩ => show win0_1.index t (2 : Fin 4) * 1024 + 1 * (x 2).val = (k 2).val; rw [e2, hk2]; omega
  | ⟨3, _⟩ => show win0_1.index t (3 : Fin 4) * 256 + 1 * (x 3).val = (k 3).val; rw [e3, hk3]; omega

/-! ## What the history and the output block hold after each point -/

/-- After ANY point the history holds that point's tile's last four rows: both cases store the whole scratch. -/
theorem scratch_after (c : Dev nD) (t : Fin cfg0.N) :
    (outsAt0 m c t.val t.isLt).2 = lastRows (iblk m c 0 t) := by
  by_cases h0 : t.val % 4 = 0
  · rw [outsAt0_A m c t h0]
    dsimp only
    exact sout_A c (grid0.coords t) (ms0_0 t) (hs0_0 t) (ms0_1 t) (hs0_1 t) (ms0_2 t) (hs0_2 t) scM0_0 (Memref.isWhole_whole _) ((hcond0_0 t).mpr h0) (iblk m c 0 t) (iblk m c 1 t)
  · rw [outsAt0_B m c t h0]
    dsimp only
    exact sout_B c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2

/-- At the first tile of a batch the output block is the tile's value over the zero history. -/
theorem block_after_first (c : Dev nD) (t : Fin cfg0.N) (h0 : t.val % 4 = 0) :
    (outsAt0 m c t.val t.isLt).1 = blockOut (iblk m c 0 t) (iblk m c 1 t) zeroHist := by
  rw [outsAt0_A m c t h0]
  dsimp only
  exact out_A c (grid0.coords t) (ms0_0 t) (hs0_0 t) (ms0_1 t) (hs0_1 t) (ms0_2 t) (hs0_2 t) scM0_0 (Memref.isWhole_whole _) ((hcond0_0 t).mpr h0) (iblk m c 0 t) (iblk m c 1 t)

/-- At a later tile the output block is the tile's value over the previous tile's last four rows. -/
theorem block_after_later (c : Dev nD) (t : Fin cfg0.N) (h0 : ¬t.val % 4 = 0) :
    (outsAt0 m c t.val t.isLt).1
      = blockOut (iblk m c 0 t) (iblk m c 1 t) (lastRows (iblk m c 0 (⟨t.val - 1, Nat.lt_of_le_of_lt (Nat.sub_le _ _) t.isLt⟩ : Fin cfg0.N))) := by
  rw [outsAt0_B m c t h0]
  dsimp only
  exact (out_B c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2).trans
    (congrArg (blockOut (iblk m c 0 t) (iblk m c 1 t)) (scratch_after m c (⟨t.val - 1, Nat.lt_of_le_of_lt (Nat.sub_le _ _) t.isLt⟩ : Fin cfg0.N)))

/-! ## What a point writes back is its block of the whole-array filter -/

/-- The spectrogram block at point `t` is the array's batch `t / 4`, times `1024·(t % 4) …`. -/
theorem spec_block (c : Dev nD) (t : Fin cfg0.N) (hN : t.val < 32) (ch : Fin 2) (r : Fin 1024) (l : Fin 481) :
    (iblk m c 0 t : Vec Ideal S1x2x1024x481 .f32) (ix4 (0 : Fin 1) ch r l)
      = (V m c main_arg0 : SpecShape.Idx → EReal) (ix4 (⟨t.val / 4, by omega⟩ : Fin 8) ch
          (⟨1024 * (⟨t.val % 4, by omega⟩ : Fin 4).val + r.val, by have := r.isLt; show 1024 * (t.val % 4) + r.val < 4096; omega⟩ : Fin 4096) l) :=
  iblk0_apply m c t (ix4 (0 : Fin 1) ch r l) _ rfl rfl rfl rfl

/-- The coefficient block at point `t`, likewise. -/
theorem coef_block (c : Dev nD) (t : Fin cfg0.N) (hN : t.val < 32) (j : Fin 10) (r : Fin 1024) (l : Fin 256) :
    (iblk m c 1 t : Vec Ideal S1x10x1024x256 .f32) (ix4 (0 : Fin 1) j r l)
      = (V m c main_arg1 : CoefShape.Idx → EReal) (ix4 (⟨t.val / 4, by omega⟩ : Fin 8) j
          (⟨1024 * (⟨t.val % 4, by omega⟩ : Fin 4).val + r.val, by have := r.isLt; show 1024 * (t.val % 4) + r.val < 4096; omega⟩ : Fin 4096) l) :=
  iblk1_apply m c t (ix4 (0 : Fin 1) j r l) _ rfl rfl rfl rfl

/-- The previous point's last four rows are the array's four rows just before the tile (same batch: the point is not
    the first of its batch). -/
theorem prev_rows (c : Dev nD) (t : Fin cfg0.N) (hN : t.val < 32) (h0 : ¬t.val % 4 = 0) (ch : Fin 2) (s : Fin 4) (l : Fin 256) :
    lastRows (iblk m c 0 (⟨t.val - 1, Nat.lt_of_le_of_lt (Nat.sub_le _ _) t.isLt⟩ : Fin cfg0.N)) (ix3 ch s l)
      = (V m c main_arg0 : SpecShape.Idx → EReal) (ix4 (⟨t.val / 4, by omega⟩ : Fin 8) ch
          (⟨1024 * (⟨t.val % 4, by omega⟩ : Fin 4).val + s.val - 4, by have := s.isLt; show 1024 * (t.val % 4) + s.val - 4 < 4096; omega⟩ : Fin 4096)
          (⟨l.val, by have := l.isLt; omega⟩ : Fin 481)) := by
  have hs := s.isLt
  unfold lastRows
  refine iblk0_apply m c (⟨t.val - 1, Nat.lt_of_le_of_lt (Nat.sub_le _ _) t.isLt⟩ : Fin cfg0.N) _ _ ?_ rfl ?_ rfl
  · show t.val / 4 = (t.val - 1) / 4; omega
  · show 1024 * (t.val % 4) + s.val - 4 = 1024 * ((t.val - 1) % 4) + (1020 + s.val); omega

/-- WHAT POINT `t` WRITES BACK is block `t` of the whole-array filter of the two argument arrays. -/
theorem flushed_eq (c : Dev nD) (t : Fin cfg0.N) :
    (dats m 0 c).flushed 2 t
      = ((cfg0.win 2).blk t).view.read (Elt Ideal) (filtered (V m c main_arg0) (V m c main_arg1)) := by
  rw [Value.flushed2]
  funext j
  rw [View.read_apply]
  show (outsAt0 m c t.val t.isLt).1 j
    = filtered (V m c main_arg0) (V m c main_arg1) (((cfg0.win 2).blk t).view.emb j)
  have hN : t.val < 32 := lt_of_lt_of_eq t.isLt N_0
  obtain ⟨e0, e1, e2, e3⟩ := (idx_facts t).2.2
  have hj0 : (j 0).val < 1 := (j 0).isLt
  have k0 : ((((cfg0.win 2).blk t).view.emb j) (0 : Fin 4)).val = (⟨t.val / 4, by omega⟩ : Fin 8).val := by
    show win0_2.index t (0 : Fin 4) * 1 + 1 * (j 0).val = t.val / 4; rw [e0]; omega
  have k1 : ((((cfg0.win 2).blk t).view.emb j) (1 : Fin 4)).val = (j 1).val := by
    show win0_2.index t (1 : Fin 4) * 2 + 1 * (j 1).val = (j 1).val; rw [e1]; omega
  have k2 : ((((cfg0.win 2).blk t).view.emb j) (2 : Fin 4)).val
      = 1024 * (⟨t.val % 4, by omega⟩ : Fin 4).val + (j 2).val := by
    show win0_2.index t (2 : Fin 4) * 1024 + 1 * (j 2).val = 1024 * (t.val % 4) + (j 2).val; rw [e2]; omega
  have k3 : ((((cfg0.win 2).blk t).view.emb j) (3 : Fin 4)).val = (j 3).val := by
    show win0_2.index t (3 : Fin 4) * 481 + 1 * (j 3).val = (j 3).val; rw [e3]; omega
  by_cases h0 : t.val % 4 = 0
  · rw [block_after_first m c t h0]
    refine tile_value (V m c main_arg0) (V m c main_arg1) (⟨t.val / 4, by omega⟩ : Fin 8) (⟨t.val % 4, by omega⟩ : Fin 4)
      (iblk m c 0 t) (iblk m c 1 t) zeroHist (spec_block m c t hN) (coef_block m c t hN) (fun ch s l => ?_) j _ k0 k1 k2 k3
    rw [dif_pos (show (⟨t.val % 4, by omega⟩ : Fin 4).val = 0 from h0)]
    exact zeroHist_apply _
  · rw [block_after_later m c t h0]
    refine tile_value (V m c main_arg0) (V m c main_arg1) (⟨t.val / 4, by omega⟩ : Fin 8) (⟨t.val % 4, by omega⟩ : Fin 4)
      (iblk m c 0 t) (iblk m c 1 t) (lastRows (iblk m c 0 (⟨t.val - 1, Nat.lt_of_le_of_lt (Nat.sub_le _ _) t.isLt⟩ : Fin cfg0.N))) (spec_block m c t hN) (coef_block m c t hN)
      (fun ch s l => ?_) j _ k0 k1 k2 k3
    rw [dif_neg (show ¬(⟨t.val % 4, by omega⟩ : Fin 4).val = 0 from h0)]
    exact prev_rows m c t hN h0 ch s l

/-! ## The blocks cover the array -/

/-- Every array index lies in the block of the point of its batch and time tile, and every point writes back. -/
theorem cover (i : S8x2x4096x481.Idx) :
    ∃ t : Fin cfg0.N, (cfg0.win 2).flush t = true ∧ i ∈ ((cfg0.win 2).blk t).view.set := by
  have hi0 : (i 0).val < 8 := (i 0).isLt
  have hi1 : (i 1).val < 2 := (i 1).isLt
  have hi2 : (i 2).val < 4096 := (i 2).isLt
  have hi3 : (i 3).val < 481 := (i 3).isLt
  have hN : cfg0.N = 32 := N_0
  let t : Fin cfg0.N := ⟨4 * (i 0).val + (i 2).val / 1024, by rw [hN]; omega⟩
  obtain ⟨e0, e1, e2, e3⟩ := (idx_facts t).2.2
  have ht : t.val = 4 * (i 0).val + (i 2).val / 1024 := rfl
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 4) * 1 ≤ (i 0).val ∧ (i 0).val < win0_2.index t (0 : Fin 4) * 1 + 1; rw [e0, ht]; omega
  | ⟨1, _⟩ => show win0_2.index t (1 : Fin 4) * 2 ≤ (i 1).val ∧ (i 1).val < win0_2.index t (1 : Fin 4) * 2 + 2; rw [e1]; omega
  | ⟨2, _⟩ => show win0_2.index t (2 : Fin 4) * 1024 ≤ (i 2).val ∧ (i 2).val < win0_2.index t (2 : Fin 4) * 1024 + 1024; rw [e2, ht]; omega
  | ⟨3, _⟩ => show win0_2.index t (3 : Fin 4) * 481 ≤ (i 3).val ∧ (i 3).val < win0_2.index t (3 : Fin 4) * 481 + 481; rw [e3]; omega

/-- So the result array ends holding the whole-array filter of the two argument arrays. -/
theorem final (c : Dev nD) :
    (dats m 0 c).arrAt 2 cfg0.N = filtered (V m c main_arg0) (V m c main_arg1) :=
  (dats m 0 c).arrAt_eq_of_cover 2 (filtered (V m c main_arg0) (V m c main_arg1)) (fun t _ => flushed_eq m c t) cover

/-- The kernel's run with the result array named by the specification, the arguments unchanged. -/
theorem run : θ_run defs (onTc (τ := τ) (main (F := Ideal))) ⟨m, fun _ => 0, ρ⟩ fun r => ∀ c : Dev nD,
      r.2.mem ((c : Thread nD τ).loc main_v0)
        = Cert.FirSpec.filtered (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.FirArray

end
-- ==== Proof.lean ====
/-
  A causal five-tap complex filter along time: a tiled kernel with a carried history against a padded-and-unfolded
  reference. Both compute, for batch b, time τ and filtered frequency f < 256,

      real  = Σₖ (pᵣ·cᵣ − pᵢ·cᵢ)        imaginary = Σₖ (pᵢ·cᵣ + pᵣ·cᵢ),      k = 0 … 4,

  with p the spectrogram at time τ + k − 4 (zero before time 0), cᵣ = coefs[b, k, τ, f], cᵢ = coefs[b, 5 + k, τ, f];
  the other 225 frequencies pass through. The reference pads four zero rows, stacks five shifted copies on a new
  axis and sums over it. The kernel walks a grid of 8 batches × 4 time tiles of 1024 rows; it keeps the last four rows
  of each tile in a scratch that the next tile of the same batch reads (zeroed at a batch's first tile), reads the
  five shifted windows of [history ; tile] by rotations, and forms the sums by a running accumulator.

  The two results are equal as extended reals, element by element, with no finiteness needed: the products are the
  same term by term (the history holds exactly the rows the padded array has before the tile, zeros at the start),
  and the accumulator ((((z + a₀) − b₀) + a₁) − b₁) … is z + Σₖ (aₖ − bₖ) by associativity and commutativity of
  addition alone (Proof/FirSpec.lean). The pieces:

    Proof/FirSpec.lean   the result as ONE function of the two arrays; the regrouping law
    Proof/RefRead.lean, Proof/RefRun.lean, Proof/RefIsFir.lean
                         the reference: its stages read at an index, its run stage by stage, and that its last
                         stage is the specification
    Proof/FirRows.lean, Proof/FirBlock.lean, Proof/FirCases.lean
                         one tile: the layout operations at an index, the tile's value, what each control case
                         leaves in the output block and in the history
    Proof/FirTile.lean, Proof/FirArray.lean
                         from tiles to the array: a tile's value is the specification on its rows; the history
                         after any tile is that tile's last rows; the blocks cover the result array
  The three frames are the generated ones (the reference's is its run with the result dropped); the idealization
  rewrote nothing, so that conjunct is trivial.
-/
import proofs.«116127_j40218073759990_2_alg».proof.Defs
import proofs.«116127_j40218073759990_2_alg».proof.Proof.Gen.Kernel
import proofs.«116127_j40218073759990_2_alg».proof.Proof.Gen.Kernel.Skeleton
import proofs.«116127_j40218073759990_2_alg».proof.Proof.Gen.Kernel.Launch
import proofs.«116127_j40218073759990_2_alg».proof.Proof.Gen.Kernel.Points
import proofs.«116127_j40218073759990_2_alg».proof.Proof.Gen.Kernel.Frame
import proofs.«116127_j40218073759990_2_alg».proof.Proof.Gen.KernelIdeal
import proofs.«116127_j40218073759990_2_alg».proof.Proof.Gen.KernelIdeal.Skeleton
import proofs.«116127_j40218073759990_2_alg».proof.Proof.Gen.KernelIdeal.Launch
import proofs.«116127_j40218073759990_2_alg».proof.Proof.Gen.KernelIdeal.Points
import proofs.«116127_j40218073759990_2_alg».proof.Proof.Gen.KernelIdeal.Frame
import proofs.«116127_j40218073759990_2_alg».proof.Proof.Gen.KernelIdeal.Value
import proofs.«116127_j40218073759990_2_alg».proof.Proof.Gen.ReferenceIdeal
import proofs.«116127_j40218073759990_2_alg».proof.Proof.Gen.Pre_finite_inputs
import proofs.«116127_j40218073759990_2_alg».proof.Proof.RefRun
import proofs.«116127_j40218073759990_2_alg».proof.Proof.RefIsFir
import proofs.«116127_j40218073759990_2_alg».proof.Proof.FirArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunByStages.run (F := Ideal) m ρ)

/-- The idealization rewrote no operation. -/
theorem preserves : Cert.preserves_Kernel_KernelIdeal := trivial

/-- Both programs end with the result array at the filter of the argument arrays: the kernel by its run read block
    by block, the reference by its run and the reading of its last stage; the arguments agree by hypothesis. -/
theorem algebraic : Cert.algebraic_KernelIdeal_ReferenceIdeal := by
  intro m ρ m' ρ' _ hagree
  refine ⟨fun c => Cert.FirSpec.filtered (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.FirArray.run m ρ, ?_⟩
  refine (θ_run Cert.ReferenceIdeal.defs _ _).mono (fun _ h c => ⟨?_, (h c).2⟩)
    (Cert.ReferenceIdeal.RunByStages.run (F := Ideal) m' ρ')
  rw [(h c).1, Cert.RefIsFir.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
